-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S16x3x64x1024 : Shape := ⟨4, ![16, 3, 64, 1024]⟩
abbrev S3x16x64x1024 : Shape := ⟨4, ![3, 16, 64, 1024]⟩
abbrev S16x3x64 : Shape := ⟨3, ![16, 3, 64]⟩
abbrev S3x16x64 : Shape := ⟨3, ![3, 16, 64]⟩
abbrev S1x512x1024 : Shape := ⟨3, ![1, 512, 1024]⟩
abbrev S512x1024 : Shape := ⟨2, ![512, 1024]⟩
abbrev S512x3072 : Shape := ⟨2, ![512, 3072]⟩
abbrev S1x3072 : Shape := ⟨2, ![1, 3072]⟩
abbrev S1x2048x1024 : Shape := ⟨3, ![1, 2048, 1024]⟩
abbrev S2048x1024 : Shape := ⟨2, ![2048, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 15
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S16x3x64x1024, .f32⟩
  | .hbm, ⟨6, _⟩ => ⟨S3x16x64x1024, .f32⟩
  | .hbm, ⟨7, _⟩ => ⟨S3072x1024, .f32⟩
  | .hbm, ⟨8, _⟩ => ⟨S16x3x64, .f32⟩
  | .hbm, ⟨9, _⟩ => ⟨S3x16x64, .f32⟩
  | .hbm, ⟨10, _⟩ => ⟨S3072, .f32⟩
  | .hbm, ⟨11, _⟩ => ⟨S4x2048x1024, .bf16⟩
  | .hbm, ⟨12, _⟩ => ⟨S4x2048x1024, .bf16⟩
  | .hbm, ⟨13, _⟩ => ⟨S4x2048x1024, .bf16⟩
  | .hbm, ⟨14, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .f32⟩
  | .local _ .vmem, ⟨3, _⟩ => ⟨S3072, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1024x1024, .f32⟩
  | .local _ .vmem, ⟨17, _⟩ => ⟨S1024, .f32⟩
  | .local _ .vmem, ⟨18, _⟩ => ⟨S1x512x1024, .f32⟩
  | .local _ .vmem, ⟨19, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S3072x1024_S16x3x64x1024 : S3072x1024.ShapeCasts S16x3x64x1024
  transposes_S16x3x64x1024_S3x16x64x1024_1_0_2_3 : S16x3x64x1024.Transposes [1, 0, 2, 3] S3x16x64x1024
  shapeCasts_S3x16x64x1024_S3072x1024 : S3x16x64x1024.ShapeCasts S3072x1024
  shapeCasts_S3072_S16x3x64 : S3072.ShapeCasts S16x3x64
  transposes_S16x3x64_S3x16x64_1_0_2 : S16x3x64.Transposes [1, 0, 2] S3x16x64
  shapeCasts_S3x16x64_S3072 : S3x16x64.ShapeCasts S3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S512x3072_o0_1024_S512x1024 : S512x3072.Slices ![0, 1024] S512x1024
  slices_S512x3072_o0_2048_S512x1024 : S512x3072.Slices ![0, 2048] S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S512x1024_o0_0_S512x64 : S512x1024.Slices ![0, 0] S512x64
  slices_S2048x1024_o0_0_S2048x64 : S2048x1024.Slices ![0, 0] S2048x64
  reduces_S512x2048_S512 : S512x2048.Reduces [1] S512
  shapeCasts_S512_S512x1 : S512.ShapeCasts S512x1
  broadcasts_S512x1_S512x2048 : S512x1.Broadcasts S512x2048
  slices_S512x1024_o0_64_S512x64 : S512x1024.Slices ![0, 64] S512x64
  slices_S2048x1024_o0_64_S2048x64 : S2048x1024.Slices ![0, 64] S2048x64
  slices_S512x1024_o0_128_S512x64 : S512x1024.Slices ![0, 128] S512x64
  slices_S2048x1024_o0_128_S2048x64 : S2048x1024.Slices ![0, 128] S2048x64
  slices_S512x1024_o0_192_S512x64 : S512x1024.Slices ![0, 192] S512x64
  slices_S2048x1024_o0_192_S2048x64 : S2048x1024.Slices ![0, 192] S2048x64
  slices_S512x1024_o0_256_S512x64 : S512x1024.Slices ![0, 256] S512x64
  slices_S2048x1024_o0_256_S2048x64 : S2048x1024.Slices ![0, 256] S2048x64
  slices_S512x1024_o0_320_S512x64 : S512x1024.Slices ![0, 320] S512x64
  slices_S2048x1024_o0_320_S2048x64 : S2048x1024.Slices ![0, 320] S2048x64
  slices_S512x1024_o0_384_S512x64 : S512x1024.Slices ![0, 384] S512x64
  slices_S2048x1024_o0_384_S2048x64 : S2048x1024.Slices ![0, 384] S2048x64
  slices_S512x1024_o0_448_S512x64 : S512x1024.Slices ![0, 448] S512x64
  slices_S2048x1024_o0_448_S2048x64 : S2048x1024.Slices ![0, 448] S2048x64
  slices_S512x1024_o0_512_S512x64 : S512x1024.Slices ![0, 512] S512x64
  slices_S2048x1024_o0_512_S2048x64 : S2048x1024.Slices ![0, 512] S2048x64
  slices_S512x1024_o0_576_S512x64 : S512x1024.Slices ![0, 576] S512x64
  slices_S2048x1024_o0_576_S2048x64 : S2048x1024.Slices ![0, 576] S2048x64
  slices_S512x1024_o0_640_S512x64 : S512x1024.Slices ![0, 640] S512x64
  slices_S2048x1024_o0_640_S2048x64 : S2048x1024.Slices ![0, 640] S2048x64
  slices_S512x1024_o0_704_S512x64 : S512x1024.Slices ![0, 704] S512x64
  slices_S2048x1024_o0_704_S2048x64 : S2048x1024.Slices ![0, 704] S2048x64
  slices_S512x1024_o0_768_S512x64 : S512x1024.Slices ![0, 768] S512x64
  slices_S2048x1024_o0_768_S2048x64 : S2048x1024.Slices ![0, 768] S2048x64
  slices_S512x1024_o0_832_S512x64 : S512x1024.Slices ![0, 832] S512x64
  slices_S2048x1024_o0_832_S2048x64 : S2048x1024.Slices ![0, 832] S2048x64
  slices_S512x1024_o0_896_S512x64 : S512x1024.Slices ![0, 896] S512x64
  slices_S2048x1024_o0_896_S2048x64 : S2048x1024.Slices ![0, 896] S2048x64
  slices_S512x1024_o0_960_S512x64 : S512x1024.Slices ![0, 960] S512x64
  slices_S2048x1024_o0_960_S2048x64 : S2048x1024.Slices ![0, 960] S2048x64
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .f32 = 32 ∨ (Rect.block (s := S3072x1024) S3072x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .bf16 = 32 ∨ (Rect.block (s := S4x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x16x192, .f32⟩
  | .hbm, ⟨10, _⟩ => ⟨S4x16x2048x192, .f32⟩
  | .hbm, ⟨11, _⟩ => ⟨S4x16x2048x64, .f32⟩
  | .hbm, ⟨12, _⟩ => ⟨S4x16x2048x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S4x16x2048x2048, .f32⟩
  | .hbm, ⟨20, _⟩ => ⟨S_, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S_, .f32⟩
  | .hbm, ⟨27, _⟩ => ⟨S4x16x2048, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S4x16x2048x1, .f32⟩
  | .hbm, ⟨36, _⟩ => ⟨S4x16x2048x2048, .f32⟩
  | .hbm, ⟨37, _⟩ => ⟨S4x16x2048x2048, .f32⟩
  | .hbm, ⟨38, _⟩ => ⟨S4x16x2048x64, .f32⟩
  | .hbm, ⟨39, _⟩ => ⟨S4x2048x16x64, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.QkvBlock.lean ====
/-
  The first kernel's body at an index. For a block of 512 token rows x0 : [1, 512, 1024], the whole projection
  matrix x1 : [3072, 1024] and bias x2 : [3072], the body forms the [512, 3072] product
      P[r, o] = sum_j x0[0, r, j] * x1[o, j] + x2[o]
  (a contraction of the two second axes into a zero accumulator, the bias row broadcast over the rows; the
  roundings to the short float format are the identity on the extended reals) and stores its three column bands
  [0, 1024), [1024, 2048), [2048, 3072) as the three output blocks.
-/
import proofs.«143338_j5093831213592_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.QkvBlock

open Cert.KernelIdeal Cert.KernelIdeal.Gen Idealize.ShloMosaic Idealize.ShloMosaic.TcCoe Idealize.SL.Sem
open Idealize.ShloMosaic.ValueIdx

/-- Entry o of row r of the block's projection. -/
def projBlk (x0 : Vec Ideal S1x512x1024 .f32) (x1 : Vec Ideal S3072x1024 .f32) (x2 : Vec Ideal S3072 .f32)
    (r : Fin 512) (o : Fin 3072) : EReal :=
  (∑ j : Fin 1024, x0 (ix3 (0 : Fin 1) r j) * x1 (ix2 o j)) + x2 (ix1 o)

/-! The operand indices of the body's contraction: the left operand is read at (row, k), the right at (column, k). -/

theorem lhs_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide),
    dif_pos (show (0 : Fin S512x1024.rank) ∈ dot_S512x1024_S3072x1024_S512x3072_1_1_0_0_n_n.lhsNonContracting by decide)]
  rfl
theorem lhs_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide),
    dif_pos (show (0 : Fin S3072x1024.rank) ∈ dot_S512x1024_S3072x1024_S512x3072_1_1_0_0_n_n.rhsNonContracting by decide)]
  rfl
theorem rhs_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The body's [512, 3072] value is the projection, entry by entry. -/
theorem pay1_apply (x0 : Vec Ideal S1x512x1024 .f32) (x1 : Vec Ideal S3072x1024 .f32) (x2 : Vec Ideal S3072 .f32)
    (r : Fin 512) (o : Fin 3072) : k0_pay1 (F := Ideal) x0 x1 x2 (ix2 r o) = projBlk x0 x1 x2 r o := by
  unfold k0_pay1 projBlk
  rw [addf_apply]
  congr 1
  · simp only [matmul]
    rw [Ideal.matmul_constant_zero_apply,
      ← Equiv.sum_comp (contrEquiv1 dot_S512x1024_S3072x1024_S512x3072_1_1_0_0_n_n 1024 rfl rfl).symm]
    refine Finset.sum_congr rfl fun k _ => ?_
    have hk := contrEquiv1_symm_val dot_S512x1024_S3072x1024_S512x3072_1_1_0_0_n_n 1024 rfl rfl k
    have el : dot_S512x1024_S3072x1024_S512x3072_1_1_0_0_n_n.lhsIdx (ix2 r o)
        ((contrEquiv1 dot_S512x1024_S3072x1024_S512x3072_1_1_0_0_n_n 1024 rfl rfl).symm k) = ix2 r k :=
      funext fun a => Fin.ext (by
        match a with
        | ⟨0, _⟩ => exact lhs_0 _ _
        | ⟨1, _⟩ => exact (lhs_1 _ _).trans hk)
    have er : dot_S512x1024_S3072x1024_S512x3072_1_1_0_0_n_n.rhsIdx (ix2 r o)
        ((contrEquiv1 dot_S512x1024_S3072x1024_S512x3072_1_1_0_0_n_n 1024 rfl rfl).symm k) = ix2 o k :=
      funext fun a => Fin.ext (by
        match a with
        | ⟨0, _⟩ => exact rhs_0 _ _
        | ⟨1, _⟩ => exact (rhs_1 _ _).trans hk)
    rw [el, er, truncf_apply, truncf_apply, shapeCast_1ab_ab_apply, shapeCast_self]
  · rw [broadcastTo_1b_ab_apply, shapeCast_a_1a_apply, shapeCast_self]

/-- The three stored blocks at an index: band comp of the projection. -/
theorem pay2_apply (x0 : Vec Ideal S1x512x1024 .f32) (x1 : Vec Ideal S3072x1024 .f32) (x2 : Vec Ideal S3072 .f32)
    (r : Fin 512) (c : Fin 1024) :
    k0_pay2 (F := Ideal) x0 x1 x2 (ix3 (0 : Fin 1) r c) = projBlk x0 x1 x2 r ⟨0 + c.val, by omega⟩ := by
  unfold k0_pay2
  rw [shapeCast_ab_1ab_apply, truncf_apply, slice2_axis1_eq, pay1_apply]

theorem pay3_apply (x0 : Vec Ideal S1x512x1024 .f32) (x1 : Vec Ideal S3072x1024 .f32) (x2 : Vec Ideal S3072 .f32)
    (r : Fin 512) (c : Fin 1024) :
    k0_pay3 (F := Ideal) x0 x1 x2 (ix3 (0 : Fin 1) r c) = projBlk x0 x1 x2 r ⟨1024 + c.val, by omega⟩ := by
  unfold k0_pay3
  rw [shapeCast_ab_1ab_apply, truncf_apply, slice2_axis1_eq, pay1_apply]

theorem pay4_apply (x0 : Vec Ideal S1x512x1024 .f32) (x1 : Vec Ideal S3072x1024 .f32) (x2 : Vec Ideal S3072 .f32)
    (r : Fin 512) (c : Fin 1024) :
    k0_pay4 (F := Ideal) x0 x1 x2 (ix3 (0 : Fin 1) r c) = projBlk x0 x1 x2 r ⟨2048 + c.val, by omega⟩ := by
  unfold k0_pay4
  rw [shapeCast_ab_1ab_apply, truncf_apply, slice2_axis1_eq, pay1_apply]

end Cert.KernelIdeal.QkvBlock

end
-- ==== Proof.AttnSpec.lean ====
/-
  Multi-head self-attention over x : [4, 2048, 1024] with 16 heads of width 64, as ONE function of the five
  argument arrays, index by index, on the extended reals.

  A token's projected row, proj x w bq b t o = sum_j x[b,t,j] * w[o,j] + bq[o], has 3072 entries; entry
  h*192 + comp*64 + d is component comp (0 query, 1 key, 2 value) of head h at lane d. Laid out head-major
  along 1024 columns (column c is head c / 64, lane c % 64) the three components of a token are the rows
  qkvAt x w bq comp b t.

  Attention is stated one QUERY ROW at a time (outRow): for the query row qr and the key and value matrices
  k, v of the batch entry, head h's logits are (sum_d qr[64h+d] * k[tk, 64h+d]) * 1/8, the weights are their
  softmax over the keys (the maximum is the fold of max from bottom, the shifted exponentials are divided by
  their sum), column c of the context is sum_tk weight_{c/64}[tk] * v[tk, c], and the output row is the context
  row times the transposed output weights plus the output bias.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Column 64*h + d of the head-major layout. -/
def col (h : Fin 16) (d : Fin 64) : Fin 1024 := ⟨h.val * 64 + d.val, by omega⟩
/-- The head of a column. -/
def hd (c : Fin 1024) : Fin 16 := ⟨c.val / 64, by omega⟩
/-- The lane of a column inside its head. -/
def ln (c : Fin 1024) : Fin 64 := ⟨c.val % 64, Nat.mod_lt _ (by decide)⟩
/-- The projected entry that holds component comp of column c: (c / 64)*192 + comp*64 + c % 64. -/
def prow (comp : Fin 3) (c : Fin 1024) : Fin 3072 := ⟨c.val / 64 * 192 + comp.val * 64 + c.val % 64, by omega⟩

theorem col_hd_ln (c : Fin 1024) : col (hd c) (ln c) = c := Fin.ext (by simp only [col, hd, ln]; omega)
theorem hd_col (h : Fin 16) (d : Fin 64) : hd (col h d) = h := Fin.ext (by simp only [col, hd]; omega)
theorem ln_col (h : Fin 16) (d : Fin 64) : ln (col h d) = d := Fin.ext (by simp only [col, ln]; omega)
theorem prow_col_val (comp : Fin 3) (h : Fin 16) (d : Fin 64) :
    (prow comp (col h d)).val = h.val * 192 + comp.val * 64 + d.val := by simp only [prow, col]; omega

/-- The logit scale 1/8, the reciprocal of the square root of the head width 64. -/
def scale : EReal := ((1 / 8 : ℝ) : EReal)

/-! ## One query row -/

/-- Head h's logit of the query row against key tk. -/
def scoreRow (qr : Fin 1024 → EReal) (k : Fin 2048 → Fin 1024 → EReal) (h : Fin 16) (tk : Fin 2048) : EReal :=
  (∑ d : Fin 64, qr (col h d) * k tk (col h d)) * scale
/-- The row's largest logit in head h: the fold of max from bottom over the keys. -/
def maxRow (qr : Fin 1024 → EReal) (k : Fin 2048 → Fin 1024 → EReal) (h : Fin 16) : EReal :=
  (Finset.univ : Finset (Fin 2048)).fold max ⊥ (scoreRow qr k h)
/-- The shifted exponential. -/
def expRow (qr : Fin 1024 → EReal) (k : Fin 2048 → Fin 1024 → EReal) (h : Fin 16) (tk : Fin 2048) : EReal :=
  Ideal.exp (scoreRow qr k h tk - maxRow qr k h)
/-- The softmax weight of key tk in head h. -/
def probRow (qr : Fin 1024 → EReal) (k : Fin 2048 → Fin 1024 → EReal) (h : Fin 16) (tk : Fin 2048) : EReal :=
  Ideal.div (expRow qr k h tk) (∑ tk' : Fin 2048, expRow qr k h tk')
/-- Column c of the row's context: the weights of head c / 64 against column c of the values. -/
def ctxRow (qr : Fin 1024 → EReal) (k v : Fin 2048 → Fin 1024 → EReal) (c : Fin 1024) : EReal :=
  ∑ tk : Fin 2048, probRow qr k (hd c) tk * v tk c
/-- The output row: the context row through the output projection. -/
def outRow (qr : Fin 1024 → EReal) (k v : Fin 2048 → Fin 1024 → EReal)
    (wo : FVec Ideal ⟨2, ![1024, 1024]⟩ .f32) (bo : FVec Ideal ⟨1, ![1024]⟩ .f32) (o : Fin 1024) : EReal :=
  (∑ c : Fin 1024, ctxRow qr k v c * wo (ix2 o c)) + bo (ix1 o)

/-! ## The projection and the whole function -/

/-- Entry o of token (b, t)'s projected row. -/
def proj (x : FVec Ideal ⟨3, ![4, 2048, 1024]⟩ .f32) (w : FVec Ideal ⟨2, ![3072, 1024]⟩ .f32)
    (bq : FVec Ideal ⟨1, ![3072]⟩ .f32) (b : Fin 4) (t : Fin 2048) (o : Fin 3072) : EReal :=
  (∑ j : Fin 1024, x (ix3 b t j) * w (ix2 o j)) + bq (ix1 o)

/-- Component comp of token (b, t), head-major along the 1024 columns. -/
def qkvAt (x : FVec Ideal ⟨3, ![4, 2048, 1024]⟩ .f32) (w : FVec Ideal ⟨2, ![3072, 1024]⟩ .f32)
    (bq : FVec Ideal ⟨1, ![3072]⟩ .f32) (comp : Fin 3) (b : Fin 4) (t : Fin 2048) (c : Fin 1024) : EReal :=
  proj x w bq b t (prow comp c)

/-- The attention output at (b, t, o). -/
def outAt (x : FVec Ideal ⟨3, ![4, 2048, 1024]⟩ .f32) (w : FVec Ideal ⟨2, ![3072, 1024]⟩ .f32)
    (bq : FVec Ideal ⟨1, ![3072]⟩ .f32) (wo : FVec Ideal ⟨2, ![1024, 1024]⟩ .f32) (bo : FVec Ideal ⟨1, ![1024]⟩ .f32)
    (b : Fin 4) (t : Fin 2048) (o : Fin 1024) : EReal :=
  outRow (qkvAt x w bq 0 b t) (qkvAt x w bq 1 b) (qkvAt x w bq 2 b) wo bo o

/-- The whole result array. -/
def out (x : FVec Ideal ⟨3, ![4, 2048, 1024]⟩ .f32) (w : FVec Ideal ⟨2, ![3072, 1024]⟩ .f32)
    (bq : FVec Ideal ⟨1, ![3072]⟩ .f32) (wo : FVec Ideal ⟨2, ![1024, 1024]⟩ .f32) (bo : FVec Ideal ⟨1, ![1024]⟩ .f32) :
    FVec Ideal ⟨3, ![4, 2048, 1024]⟩ .f32 :=
  fun i => outAt x w bq wo bo ⟨(i 0).val, (i 0).isLt⟩ ⟨(i 1).val, (i 1).isLt⟩ ⟨(i 2).val, (i 2).isLt⟩

theorem out_ix3 (x : FVec Ideal ⟨3, ![4, 2048, 1024]⟩ .f32) (w : FVec Ideal ⟨2, ![3072, 1024]⟩ .f32)
    (bq : FVec Ideal ⟨1, ![3072]⟩ .f32) (wo : FVec Ideal ⟨2, ![1024, 1024]⟩ .f32) (bo : FVec Ideal ⟨1, ![1024]⟩ .f32)
    (b : Fin 4) (t : Fin 2048) (o : Fin 1024) : out x w bq wo bo (ix3 b t o) = outAt x w bq wo bo b t o := rfl

/-! ## The float literals of the two programs -/

/-- The literal 0.125 denotes 1/8. -/
theorem ofBits_eighth : Ideal.ofBits .f32 0x3E000000#32 = scale := by
  unfold scale; simp [Ideal.ofBits, Ideal.ieee, -EReal.coe_mul]; norm_num

/-- The pattern of minus infinity denotes bottom. -/
theorem ofBits_neg_inf : Ideal.ofBits .f32 0xFF800000#32 = ⊥ := by
  simp [Ideal.ofBits, Ideal.ieee]

/-- The literal 64.0 denotes 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  show (if (64 : ℝ) < 0 then ⊥ else (Real.sqrt 64 : EReal)) = _
  rw [if_neg (by norm_num)]
  congr 1
  rw [show (64 : ℝ) = 8 ^ 2 by norm_num, Real.sqrt_sq (by norm_num)]

/-- Dividing by the square root of 64 is scaling by 1/8, on every extended real. -/
theorem div_sqrt_64 (s : EReal) : Ideal.div s (Ideal.sqrt (Ideal.ofBits .f32 0x42800000#32)) = s * scale := by
  rw [ofBits_64, sqrt_64, Ideal.div_coe (by norm_num : (8 : ℝ) ≠ 0)]; rfl

end Cert.Attn

end
-- ==== Proof.Regroup.lean ====
/-
  The projection weights and bias regrouped. The 3072 projected entries of a token are ordered head by head,
  (head, component, lane); regrouping them component by component, (component, head, lane) — a cast to
  [16, 3, 64, ..], a swap of the first two axes, a cast back — puts component comp of column c at entry
  comp * 1024 + c, and that entry is the original entry (c / 64) * 192 + comp * 64 + c % 64.
-/
import proofs.«143338_j5093831213592_2_alg».proof.Proof.AttnSpec
import Idealize.ShloMosaic.Lib.Pipeline.Value
import Idealize.ShloMosaic.Lib.ValueIdx

noncomputable section

namespace Cert.Attn.Regroup

open Idealize.ShloMosaic Idealize.ShloMosaic.ValueIdx Cert.Attn

variable {α : Type}

/-- Entry comp * 1024 + c of the regrouped order. -/
def band (comp : Fin 3) (c : Fin 1024) : Fin 3072 := ⟨comp.val * 1024 + c.val, by omega⟩

/-- The regrouped weight matrix at row comp * 1024 + c is the original at row prow comp c. -/
theorem weights_apply (W : (⟨2, ![3072, 1024]⟩ : Shape).Idx → α)
    (h1 : (⟨2, ![3072, 1024]⟩ : Shape).ShapeCasts ⟨4, ![16, 3, 64, 1024]⟩)
    (h2 : (⟨4, ![16, 3, 64, 1024]⟩ : Shape).Transposes [1, 0, 2, 3] ⟨4, ![3, 16, 64, 1024]⟩)
    (h3 : (⟨4, ![3, 16, 64, 1024]⟩ : Shape).ShapeCasts ⟨2, ![3072, 1024]⟩)
    (comp : Fin 3) (c : Fin 1024) (j : Fin 1024) :
    shapeCast ⟨2, ![3072, 1024]⟩ (transpose ⟨4, ![3, 16, 64, 1024]⟩ [1, 0, 2, 3]
      (shapeCast ⟨4, ![16, 3, 64, 1024]⟩ W h1) h2) h3 (ix2 (band comp c) j) = W (ix2 (prow comp c) j) := by
  refine (shapeCast_apply _ h3 _ (ix4 comp (hd c) (ln c) j) ?_).trans ?_
  · rw [Shape.rowMajor_val_four, Shape.rowMajor_val_two]
    show ((comp.val * 16 + c.val / 64) * 64 + c.val % 64) * 1024 + j.val = (comp.val * 1024 + c.val) * 1024 + j.val
    omega
  refine (transpose_apply _ _ h2 _ (ix4 (hd c) comp (ln c) j) (fun b => by
    match b with
    | ⟨0, _⟩ => rfl
    | ⟨1, _⟩ => rfl
    | ⟨2, _⟩ => rfl
    | ⟨3, _⟩ => rfl)).trans ?_
  refine shapeCast_apply _ h1 _ (ix2 (prow comp c) j) ?_
  rw [Shape.rowMajor_val_two, Shape.rowMajor_val_four]
  show (c.val / 64 * 192 + comp.val * 64 + c.val % 64) * 1024 + j.val
    = ((c.val / 64 * 3 + comp.val) * 64 + c.val % 64) * 1024 + j.val
  omega

/-- The regrouped bias at entry comp * 1024 + c is the original at entry prow comp c. -/
theorem bias_apply (B : (⟨1, ![3072]⟩ : Shape).Idx → α)
    (h1 : (⟨1, ![3072]⟩ : Shape).ShapeCasts ⟨3, ![16, 3, 64]⟩)
    (h2 : (⟨3, ![16, 3, 64]⟩ : Shape).Transposes [1, 0, 2] ⟨3, ![3, 16, 64]⟩)
    (h3 : (⟨3, ![3, 16, 64]⟩ : Shape).ShapeCasts ⟨1, ![3072]⟩)
    (comp : Fin 3) (c : Fin 1024) :
    shapeCast ⟨1, ![3072]⟩ (transpose ⟨3, ![3, 16, 64]⟩ [1, 0, 2]
      (shapeCast ⟨3, ![16, 3, 64]⟩ B h1) h2) h3 (ix1 (band comp c)) = B (ix1 (prow comp c)) := by
  refine (shapeCast_apply _ h3 _ (ix3 comp (hd c) (ln c)) ?_).trans ?_
  · rw [Shape.rowMajor_val_three, Shape.rowMajor_val_one]
    show (comp.val * 16 + c.val / 64) * 64 + c.val % 64 = comp.val * 1024 + c.val
    omega
  refine (transpose_apply _ _ h2 _ (ix3 (hd c) comp (ln c)) (fun b => by
    match b with
    | ⟨0, _⟩ => rfl
    | ⟨1, _⟩ => rfl
    | ⟨2, _⟩ => rfl)).trans ?_
  refine shapeCast_apply _ h1 _ (ix1 (prow comp c)) ?_
  rw [Shape.rowMajor_val_one, Shape.rowMajor_val_three]
  show c.val / 64 * 192 + comp.val * 64 + c.val % 64 = (c.val / 64 * 3 + comp.val) * 64 + c.val % 64
  omega

end Cert.Attn.Regroup

end
-- ==== Proof.QkvArrays.lean ====
/-
  The first region's three result arrays. Grid point (b, i) stages rows [512 i, 512 i + 512) of batch entry b of the
  token array, the whole regrouped weights and bias, and writes the three [1, 512, 1024] blocks back at (b, i, 0);
  the blocks tile [4, 2048, 1024], so each result array holds, at (b, t, c), band comp of token (b, t)'s projection:
      sum_j X[b, t, j] * W2[comp * 1024 + c, j] + B5[comp * 1024 + c].
-/
import proofs.«143338_j5093831213592_2_alg».proof.Proof.Gen.KernelIdeal.Frame
import proofs.«143338_j5093831213592_2_alg».proof.Proof.QkvBlock
import proofs.«143338_j5093831213592_2_alg».proof.Proof.Regroup
import Idealize.ShloMosaic.Lib.Pipeline.Value
import Idealize.ShloMosaic.Lib.ValueIdx

set_option maxRecDepth 16384

noncomputable section

namespace Cert.KernelIdeal.QkvArrays

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.QkvBlock (projBlk)
open Cert.Attn.Regroup (band)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Band comp of the projection of every token: the array function. -/
def qArr (comp : Fin 3) (X : Vec Ideal S4x2048x1024 .f32) (W2 : Vec Ideal S3072x1024 .f32) (B5 : Vec Ideal S3072 .f32) :
    S4x2048x1024.Idx → EReal :=
  fun i => Cert.Attn.proj X W2 B5 ⟨(i 0).val, (i 0).isLt⟩ ⟨(i 1).val, (i 1).isLt⟩ (band comp ⟨(i 2).val, (i 2).isLt⟩)

variable (V : (c : Dev nD) → (b : Ref sig .tc) → Buf (Elt Ideal) ((c : Thread nD τ).loc b))

/-! ## Output window 3: component 0 -/

/-- The block the body leaves in window 3, at an index: band 0 of the block's projection. -/
theorem blk3 (x0 : Vec Ideal S1x512x1024 .f32) (x1 : Vec Ideal S3072x1024 .f32) (x2 : Vec Ideal S3072 .f32)
    (y : S1x512x1024.Idx) :
    out0_3 (F := Ideal) x0 x1 x2 y
      = projBlk x0 x1 x2 ⟨(y 1).val, (y 1).isLt⟩ (band 0 ⟨(y 2).val, (y 2).isLt⟩) := by
  have hy : y = ix3 (0 : Fin 1) ⟨(y 1).val, (y 1).isLt⟩ ⟨(y 2).val, (y 2).isLt⟩ := by
    funext a; apply Fin.ext
    match a with
    | ⟨0, _⟩ => have h : (y 0).val < 1 := (y 0).isLt; show (y 0).val = 0; omega
    | ⟨1, _⟩ => rfl
    | ⟨2, _⟩ => rfl
  unfold out0_3
  rw [View.canon_unit_zero hz3]
  simp only [View.ld_unit_zero (S := S1x512x1024) hz3, View.ld_unit_zero (S := S3072x1024) hz2, View.ld_unit_zero (S := S3072) hz1]
  refine (congrArg (k0_pay2 x0 x1 x2) hy).trans ?_
  refine (QkvBlock.pay2_apply x0 x1 x2 _ _).trans ?_
  exact congrArg (projBlk x0 x1 x2 _) (Fin.ext (by
    show 0 + (y 2).val = 0 * 1024 + (y 2).val
    omega))

/-- The block against the whole arrays: when the token rows of the block are rows of X, the staged weights and bias
    are the whole arrays, and the column is the same, the block's entry is the array function's. -/
theorem point3 (X : Vec Ideal S4x2048x1024 .f32) (W2 : Vec Ideal S3072x1024 .f32) (B5 : Vec Ideal S3072 .f32)
    (x0 : Vec Ideal S1x512x1024 .f32) (x1 : Vec Ideal S3072x1024 .f32) (x2 : Vec Ideal S3072 .f32)
    (y : S1x512x1024.Idx) (i : S4x2048x1024.Idx)
    (hx0 : ∀ j : Fin 1024, x0 (ix3 (0 : Fin 1) ⟨(y 1).val, (y 1).isLt⟩ j)
      = X (ix3 (⟨(i 0).val, (i 0).isLt⟩ : Fin 4) (⟨(i 1).val, (i 1).isLt⟩ : Fin 2048) j))
    (hx1 : x1 = W2) (hx2 : x2 = B5) (h2 : (i 2).val = (y 2).val) :
    out0_3 (F := Ideal) x0 x1 x2 y = qArr 0 X W2 B5 i := by
  refine (blk3 x0 x1 x2 y).trans ?_
  subst hx1 hx2
  have hc : (⟨(y 2).val, (y 2).isLt⟩ : Fin 1024) = ⟨(i 2).val, (i 2).isLt⟩ := Fin.ext h2.symm
  unfold projBlk qArr Cert.Attn.proj
  rw [hc]
  congr 1
  exact Finset.sum_congr rfl fun j _ => by rw [hx0 j]

/-- The printed index maps, decided over the grid. -/
theorem idx_facts3 : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0 ∧ win0_2.index t (0 : Fin 1) = 0 :=
  (by decide +kernel : ∀ t : Fin grid0.N, _)

/-- Every (batch entry, row tile) is some point's block. -/
theorem idx_onto3 : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- What point t writes back is block t of the array function of the arrays as the region finds them. -/
theorem flushed3_eq (c : Dev nD) (t : Fin cfg0.N) :
    (dat0 V c).flushed 3 t = ((cfg0.win 3).blk t).view.read (Elt Ideal)
      (qArr 0 (V c main_arg0) (V c main_v2) (V c main_v5)) := by
  show (cfg0.win 3).cut (grid0.coords t) ((dat0 V c).after 3 t) = _
  rw [after0_3]
  obtain ⟨e0, e1, e2, e3, e4, e5, e6⟩ := idx_facts3 t
  funext y
  show out0_3 (iblk0 V c 0 t) (iblk0 V c 1 t) (iblk0 V c 2 t) y
    = qArr 0 (V c main_arg0) (V c main_v2) (V c main_v5) (((cfg0.win 3).blk t).view.emb y)
  refine point3 _ _ _ _ _ _ y _ ?_ ?_ ?_ ?_
  · intro j
    show V c main_arg0 (((cfg0.win 0).blk t).view.emb (ix3 (0 : Fin 1) ⟨(y 1).val, (y 1).isLt⟩ j)) = _
    refine congrArg (V c main_arg0) (funext fun a => Fin.ext ?_)
    match a with
    | ⟨0, _⟩ =>
      have h : (y 0).val < 1 := (y 0).isLt
      show win0_0.index t (0 : Fin 3) * 1 + 1 * 0 = win0_3.index t (0 : Fin 3) * 1 + 1 * (y 0).val
      omega
    | ⟨1, _⟩ =>
      show win0_0.index t (1 : Fin 3) * 512 + 1 * (y 1).val = win0_3.index t (1 : Fin 3) * 512 + 1 * (y 1).val
      omega
    | ⟨2, _⟩ =>
      show win0_0.index t (2 : Fin 3) * 1024 + 1 * j.val = j.val
      omega
  · funext z
    show V c main_v2 (((cfg0.win 1).blk t).view.emb z) = V c main_v2 z
    refine congrArg (V c main_v2) (funext fun a => Fin.ext ?_)
    match a with
    | ⟨0, _⟩ => show win0_1.index t (0 : Fin 2) * 3072 + 1 * (z 0).val = (z 0).val; omega
    | ⟨1, _⟩ => show win0_1.index t (1 : Fin 2) * 1024 + 1 * (z 1).val = (z 1).val; omega
  · funext z
    show V c main_v5 (((cfg0.win 2).blk t).view.emb z) = V c main_v5 z
    refine congrArg (V c main_v5) (funext fun a => Fin.ext ?_)
    match a with
    | ⟨0, _⟩ => show win0_2.index t (0 : Fin 1) * 3072 + 1 * (z 0).val = (z 0).val; omega
  · show win0_3.index t (2 : Fin 3) * 1024 + 1 * (y 2).val = (y 2).val
    omega

/-- An index of the array is in point t's block iff each coordinate is in the block's range on its axis. -/
theorem mem_blk3 (t : Fin cfg0.N) (i : S4x2048x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v6_0).slice (win0_3.rect t)).set ↔ _
  rw [View.set_slice_whole, Rect.mem_set_unit]
  exact Iff.rfl

/-- The blocks tile the array: index i is in the block of the point of its batch entry and row tile. -/
theorem cover3 (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := idx_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The array after the region. -/
theorem final3 (c : Dev nD) :
    (dat0 V c).arrAt 3 cfg0.N = qArr 0 (V c main_arg0) (V c main_v2) (V c main_v5) :=
  (dat0 V c).arrAt_eq_of_cover 3 _ (fun t _ => flushed3_eq V c t) (cover3)

/-! ## Output window 4: component 1 -/

/-- The block the body leaves in window 4, at an index: band 1 of the block's projection. -/
theorem blk4 (x0 : Vec Ideal S1x512x1024 .f32) (x1 : Vec Ideal S3072x1024 .f32) (x2 : Vec Ideal S3072 .f32)
    (y : S1x512x1024.Idx) :
    out0_4 (F := Ideal) x0 x1 x2 y
      = projBlk x0 x1 x2 ⟨(y 1).val, (y 1).isLt⟩ (band 1 ⟨(y 2).val, (y 2).isLt⟩) := by
  have hy : y = ix3 (0 : Fin 1) ⟨(y 1).val, (y 1).isLt⟩ ⟨(y 2).val, (y 2).isLt⟩ := by
    funext a; apply Fin.ext
    match a with
    | ⟨0, _⟩ => have h : (y 0).val < 1 := (y 0).isLt; show (y 0).val = 0; omega
    | ⟨1, _⟩ => rfl
    | ⟨2, _⟩ => rfl
  unfold out0_4
  rw [View.canon_unit_zero hz3]
  simp only [View.ld_unit_zero (S := S1x512x1024) hz3, View.ld_unit_zero (S := S3072x1024) hz2, View.ld_unit_zero (S := S3072) hz1]
  refine (congrArg (k0_pay3 x0 x1 x2) hy).trans ?_
  refine (QkvBlock.pay3_apply x0 x1 x2 _ _).trans ?_
  exact congrArg (projBlk x0 x1 x2 _) (Fin.ext (by
    show 1024 + (y 2).val = 1 * 1024 + (y 2).val
    omega))

/-- The block against the whole arrays: when the token rows of the block are rows of X, the staged weights and bias
    are the whole arrays, and the column is the same, the block's entry is the array function's. -/
theorem point4 (X : Vec Ideal S4x2048x1024 .f32) (W2 : Vec Ideal S3072x1024 .f32) (B5 : Vec Ideal S3072 .f32)
    (x0 : Vec Ideal S1x512x1024 .f32) (x1 : Vec Ideal S3072x1024 .f32) (x2 : Vec Ideal S3072 .f32)
    (y : S1x512x1024.Idx) (i : S4x2048x1024.Idx)
    (hx0 : ∀ j : Fin 1024, x0 (ix3 (0 : Fin 1) ⟨(y 1).val, (y 1).isLt⟩ j)
      = X (ix3 (⟨(i 0).val, (i 0).isLt⟩ : Fin 4) (⟨(i 1).val, (i 1).isLt⟩ : Fin 2048) j))
    (hx1 : x1 = W2) (hx2 : x2 = B5) (h2 : (i 2).val = (y 2).val) :
    out0_4 (F := Ideal) x0 x1 x2 y = qArr 1 X W2 B5 i := by
  refine (blk4 x0 x1 x2 y).trans ?_
  subst hx1 hx2
  have hc : (⟨(y 2).val, (y 2).isLt⟩ : Fin 1024) = ⟨(i 2).val, (i 2).isLt⟩ := Fin.ext h2.symm
  unfold projBlk qArr Cert.Attn.proj
  rw [hc]
  congr 1
  exact Finset.sum_congr rfl fun j _ => by rw [hx0 j]

/-- The printed index maps, decided over the grid. -/
theorem idx_facts4 : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0 ∧ win0_2.index t (0 : Fin 1) = 0 :=
  (by decide +kernel : ∀ t : Fin grid0.N, _)

/-- Every (batch entry, row tile) is some point's block. -/
theorem idx_onto4 : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- What point t writes back is block t of the array function of the arrays as the region finds them. -/
theorem flushed4_eq (c : Dev nD) (t : Fin cfg0.N) :
    (dat0 V c).flushed 4 t = ((cfg0.win 4).blk t).view.read (Elt Ideal)
      (qArr 1 (V c main_arg0) (V c main_v2) (V c main_v5)) := by
  show (cfg0.win 4).cut (grid0.coords t) ((dat0 V c).after 4 t) = _
  rw [after0_4]
  obtain ⟨e0, e1, e2, e3, e4, e5, e6⟩ := idx_facts4 t
  funext y
  show out0_4 (iblk0 V c 0 t) (iblk0 V c 1 t) (iblk0 V c 2 t) y
    = qArr 1 (V c main_arg0) (V c main_v2) (V c main_v5) (((cfg0.win 4).blk t).view.emb y)
  refine point4 _ _ _ _ _ _ y _ ?_ ?_ ?_ ?_
  · intro j
    show V c main_arg0 (((cfg0.win 0).blk t).view.emb (ix3 (0 : Fin 1) ⟨(y 1).val, (y 1).isLt⟩ j)) = _
    refine congrArg (V c main_arg0) (funext fun a => Fin.ext ?_)
    match a with
    | ⟨0, _⟩ =>
      have h : (y 0).val < 1 := (y 0).isLt
      show win0_0.index t (0 : Fin 3) * 1 + 1 * 0 = win0_4.index t (0 : Fin 3) * 1 + 1 * (y 0).val
      omega
    | ⟨1, _⟩ =>
      show win0_0.index t (1 : Fin 3) * 512 + 1 * (y 1).val = win0_4.index t (1 : Fin 3) * 512 + 1 * (y 1).val
      omega
    | ⟨2, _⟩ =>
      show win0_0.index t (2 : Fin 3) * 1024 + 1 * j.val = j.val
      omega
  · funext z
    show V c main_v2 (((cfg0.win 1).blk t).view.emb z) = V c main_v2 z
    refine congrArg (V c main_v2) (funext fun a => Fin.ext ?_)
    match a with
    | ⟨0, _⟩ => show win0_1.index t (0 : Fin 2) * 3072 + 1 * (z 0).val = (z 0).val; omega
    | ⟨1, _⟩ => show win0_1.index t (1 : Fin 2) * 1024 + 1 * (z 1).val = (z 1).val; omega
  · funext z
    show V c main_v5 (((cfg0.win 2).blk t).view.emb z) = V c main_v5 z
    refine congrArg (V c main_v5) (funext fun a => Fin.ext ?_)
    match a with
    | ⟨0, _⟩ => show win0_2.index t (0 : Fin 1) * 3072 + 1 * (z 0).val = (z 0).val; omega
  · show win0_4.index t (2 : Fin 3) * 1024 + 1 * (y 2).val = (y 2).val
    omega

/-- An index of the array is in point t's block iff each coordinate is in the block's range on its axis. -/
theorem mem_blk4 (t : Fin cfg0.N) (i : S4x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v6_1).slice (win0_4.rect t)).set ↔ _
  rw [View.set_slice_whole, Rect.mem_set_unit]
  exact Iff.rfl

/-- The blocks tile the array: index i is in the block of the point of its batch entry and row tile. -/
theorem cover4 (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The array after the region. -/
theorem final4 (c : Dev nD) :
    (dat0 V c).arrAt 4 cfg0.N = qArr 1 (V c main_arg0) (V c main_v2) (V c main_v5) :=
  (dat0 V c).arrAt_eq_of_cover 4 _ (fun t _ => flushed4_eq V c t) (cover4)

/-! ## Output window 5: component 2 -/

/-- The block the body leaves in window 5, at an index: band 2 of the block's projection. -/
theorem blk5 (x0 : Vec Ideal S1x512x1024 .f32) (x1 : Vec Ideal S3072x1024 .f32) (x2 : Vec Ideal S3072 .f32)
    (y : S1x512x1024.Idx) :
    out0_5 (F := Ideal) x0 x1 x2 y
      = projBlk x0 x1 x2 ⟨(y 1).val, (y 1).isLt⟩ (band 2 ⟨(y 2).val, (y 2).isLt⟩) := by
  have hy : y = ix3 (0 : Fin 1) ⟨(y 1).val, (y 1).isLt⟩ ⟨(y 2).val, (y 2).isLt⟩ := by
    funext a; apply Fin.ext
    match a with
    | ⟨0, _⟩ => have h : (y 0).val < 1 := (y 0).isLt; show (y 0).val = 0; omega
    | ⟨1, _⟩ => rfl
    | ⟨2, _⟩ => rfl
  unfold out0_5
  rw [View.canon_unit_zero hz3]
  simp only [View.ld_unit_zero (S := S1x512x1024) hz3, View.ld_unit_zero (S := S3072x1024) hz2, View.ld_unit_zero (S := S3072) hz1]
  refine (congrArg (k0_pay4 x0 x1 x2) hy).trans ?_
  refine (QkvBlock.pay4_apply x0 x1 x2 _ _).trans ?_
  exact congrArg (projBlk x0 x1 x2 _) (Fin.ext (by
    show 2048 + (y 2).val = 2 * 1024 + (y 2).val
    omega))

/-- The block against the whole arrays: when the token rows of the block are rows of X, the staged weights and bias
    are the whole arrays, and the column is the same, the block's entry is the array function's. -/
theorem point5 (X : Vec Ideal S4x2048x1024 .f32) (W2 : Vec Ideal S3072x1024 .f32) (B5 : Vec Ideal S3072 .f32)
    (x0 : Vec Ideal S1x512x1024 .f32) (x1 : Vec Ideal S3072x1024 .f32) (x2 : Vec Ideal S3072 .f32)
    (y : S1x512x1024.Idx) (i : S4x2048x1024.Idx)
    (hx0 : ∀ j : Fin 1024, x0 (ix3 (0 : Fin 1) ⟨(y 1).val, (y 1).isLt⟩ j)
      = X (ix3 (⟨(i 0).val, (i 0).isLt⟩ : Fin 4) (⟨(i 1).val, (i 1).isLt⟩ : Fin 2048) j))
    (hx1 : x1 = W2) (hx2 : x2 = B5) (h2 : (i 2).val = (y 2).val) :
    out0_5 (F := Ideal) x0 x1 x2 y = qArr 2 X W2 B5 i := by
  refine (blk5 x0 x1 x2 y).trans ?_
  subst hx1 hx2
  have hc : (⟨(y 2).val, (y 2).isLt⟩ : Fin 1024) = ⟨(i 2).val, (i 2).isLt⟩ := Fin.ext h2.symm
  unfold projBlk qArr Cert.Attn.proj
  rw [hc]
  congr 1
  exact Finset.sum_congr rfl fun j _ => by rw [hx0 j]

/-- The printed index maps, decided over the grid. -/
theorem idx_facts5 : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0 ∧ win0_2.index t (0 : Fin 1) = 0 :=
  (by decide +kernel : ∀ t : Fin grid0.N, _)

/-- Every (batch entry, row tile) is some point's block. -/
theorem idx_onto5 : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- What point t writes back is block t of the array function of the arrays as the region finds them. -/
theorem flushed5_eq (c : Dev nD) (t : Fin cfg0.N) :
    (dat0 V c).flushed 5 t = ((cfg0.win 5).blk t).view.read (Elt Ideal)
      (qArr 2 (V c main_arg0) (V c main_v2) (V c main_v5)) := by
  show (cfg0.win 5).cut (grid0.coords t) ((dat0 V c).after 5 t) = _
  rw [after0_5]
  obtain ⟨e0, e1, e2, e3, e4, e5, e6⟩ := idx_facts5 t
  funext y
  show out0_5 (iblk0 V c 0 t) (iblk0 V c 1 t) (iblk0 V c 2 t) y
    = qArr 2 (V c main_arg0) (V c main_v2) (V c main_v5) (((cfg0.win 5).blk t).view.emb y)
  refine point5 _ _ _ _ _ _ y _ ?_ ?_ ?_ ?_
  · intro j
    show V c main_arg0 (((cfg0.win 0).blk t).view.emb (ix3 (0 : Fin 1) ⟨(y 1).val, (y 1).isLt⟩ j)) = _
    refine congrArg (V c main_arg0) (funext fun a => Fin.ext ?_)
    match a with
    | ⟨0, _⟩ =>
      have h : (y 0).val < 1 := (y 0).isLt
      show win0_0.index t (0 : Fin 3) * 1 + 1 * 0 = win0_5.index t (0 : Fin 3) * 1 + 1 * (y 0).val
      omega
    | ⟨1, _⟩ =>
      show win0_0.index t (1 : Fin 3) * 512 + 1 * (y 1).val = win0_5.index t (1 : Fin 3) * 512 + 1 * (y 1).val
      omega
    | ⟨2, _⟩ =>
      show win0_0.index t (2 : Fin 3) * 1024 + 1 * j.val = j.val
      omega
  · funext z
    show V c main_v2 (((cfg0.win 1).blk t).view.emb z) = V c main_v2 z
    refine congrArg (V c main_v2) (funext fun a => Fin.ext ?_)
    match a with
    | ⟨0, _⟩ => show win0_1.index t (0 : Fin 2) * 3072 + 1 * (z 0).val = (z 0).val; omega
    | ⟨1, _⟩ => show win0_1.index t (1 : Fin 2) * 1024 + 1 * (z 1).val = (z 1).val; omega
  · funext z
    show V c main_v5 (((cfg0.win 2).blk t).view.emb z) = V c main_v5 z
    refine congrArg (V c main_v5) (funext fun a => Fin.ext ?_)
    match a with
    | ⟨0, _⟩ => show win0_2.index t (0 : Fin 1) * 3072 + 1 * (z 0).val = (z 0).val; omega
  · show win0_5.index t (2 : Fin 3) * 1024 + 1 * (y 2).val = (y 2).val
    omega

/-- An index of the array is in point t's block iff each coordinate is in the block's range on its axis. -/
theorem mem_blk5 (t : Fin cfg0.N) (i : S4x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v6_2).slice (win0_5.rect t)).set ↔ _
  rw [View.set_slice_whole, Rect.mem_set_unit]
  exact Iff.rfl

/-- The blocks tile the array: index i is in the block of the point of its batch entry and row tile. -/
theorem cover5 (i : S4x2048x1024.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto5 ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The array after the region. -/
theorem final5 (c : Dev nD) :
    (dat0 V c).arrAt 5 cfg0.N = qArr 2 (V c main_arg0) (V c main_v2) (V c main_v5) :=
  (dat0 V c).arrAt_eq_of_cover 5 _ (fun t _ => flushed5_eq V c t) (cover5)

end Cert.KernelIdeal.QkvArrays

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.AttnBlock.lean ====
/-
  The body of the attention kernel for one block of 512 query rows, read at an entry.

  The body computes sixteen heads. Head n takes columns [64 n, 64 n + 64) of the query block and of the key and
  value blocks, forms the logits (query lanes against key lanes, times 1/8), subtracts each row's maximum,
  exponentiates, divides by the row's sum, and multiplies the weights into the value columns. The sixteen
  [512, 64] blocks are laid side by side into [512, 1024], multiplied against the rows of the output weights, and
  the bias is added.

  All sixteen heads are the same term up to the column offset. The term is defined once, generic in the offset
  (headTerm), each printed head is identified with it by unfolding, and the generic term is read at an entry as
  the specification's sums (Cert.Attn.probRow, ctxRow, outRow). The final statement is out1_5_apply.
-/
import proofs.«143338_j5093831213592_2_alg».proof.Proof.Gen.KernelIdeal.Frame
import proofs.«143338_j5093831213592_2_alg».proof.Proof.AttnSpec
import proofs.«143338_j5093831213592_2_alg».proof.Proof.LibKeepdims
import proofs.«143338_j5093831213592_2_alg».proof.Proof.LibRowReads
import Idealize.ShloMosaic.Lib.ValueLayout
import Idealize.ShloMosaic.Lib.Pipeline.Value
import Idealize.ShloMosaic.PureOps.Ideal.Laws

noncomputable section

namespace Cert.KernelIdeal.AttnBlock

open Idealize.ShloMosaic Idealize.SL.Sem Idealize.ShloMosaic.ValueIdx
open Cert.KernelIdeal Cert.KernelIdeal.Gen

variable {F : FTy → Type} [FloatOps F]

/-! ## One attention head, generic in the column offset of its three slices -/

/-- The scaled logits of one head: the query columns [off, off+64) against the key columns [off, off+64),
    contracted over the 64 lanes, times the literal 1/8. -/
def scores (off : Nat) (hq : S512x1024.Slices ![0, off] S512x64) (hk : S2048x1024.Slices ![0, off] S2048x64)
    (q : FVec F S512x1024 .bf16) (k : FVec F S2048x1024 .bf16) : FVec F S512x2048 .f32 :=
  mulf (matmul dot_S512x64_S2048x64_S512x2048_1_1_0_0_n_n none (extractStridedSlice S512x64 ![0, off] q hq)
      (extractStridedSlice S2048x64 ![0, off] k hk) (constant S512x2048 .f32 0x00000000#32))
    (broadcast S512x2048 (Scalar.ofBits .f32 0x3E000000#32))

/-- The maximum of each row, folded from minus infinity. -/
def rowMax (s : FVec F S512x2048 .f32) : FVec F S512 .f32 :=
  multiReduction .maximumf [1] S512 s 0xFF800000#32 reduces_S512x2048_S512 (.inl rfl) rfl

/-- The sum of each row. -/
def rowSum (e : FVec F S512x2048 .f32) : FVec F S512 .f32 :=
  multiReduction .add [1] S512 e 0x00000000#32 reduces_S512x2048_S512 (.inl rfl) rfl

/-- A per-row value spread along the row: the vector as a column, broadcast over the 2048 keys. -/
def spread (m : FVec F S512 .f32) : FVec F S512x2048 .f32 :=
  broadcastTo S512x2048 (shapeCast S512x1 m shapeCasts_S512_S512x1) broadcasts_S512x1_S512x2048

/-- The logits minus their row maximum. -/
def shifted (s : FVec F S512x2048 .f32) : FVec F S512x2048 .f32 := subf s (spread (rowMax s))

/-- The exponentials divided by their row sum, in the matmul's operand type. -/
def weights (e : FVec F S512x2048 .f32) : FVec F S512x2048 .bf16 :=
  truncf .bf16 (divf e (spread (rowSum e))) bitsLt_bf16_f32

/-- The weights against one head's value columns, into a zero accumulator. -/
def ctx (w : FVec F S512x2048 .bf16) (vh : FVec F S2048x64 .bf16) : FVec F S512x64 .f32 :=
  matmul dot_S512x2048_S2048x64_S512x64_1_0_0_1_n_n none w vh (constant S512x64 .f32 0x00000000#32)

/-- One head's context block. -/
def headTerm (off : Nat) (hq : S512x1024.Slices ![0, off] S512x64) (hk : S2048x1024.Slices ![0, off] S2048x64)
    (q : FVec F S512x1024 .bf16) (k v : FVec F S2048x1024 .bf16) : FVec F S512x64 .f32 :=
  ctx (weights (exp (shifted (scores off hq hk q k)))) (extractStridedSlice S2048x64 ![0, off] v hk)

/-- The 64 query columns of head n lie inside the 1024 columns. -/
theorem sliceQ (n : Fin 16) : S512x1024.Slices ![0, 64 * n.val] S512x64 :=
  ⟨rfl, fun a => by
    have hn := n.isLt
    match a with
    | ⟨0, _⟩ => show 0 + 512 ≤ 512; omega
    | ⟨1, _⟩ => show 64 * n.val + 64 ≤ 1024; omega⟩

/-- The 64 key or value columns of head n lie inside the 1024 columns. -/
theorem sliceK (n : Fin 16) : S2048x1024.Slices ![0, 64 * n.val] S2048x64 :=
  ⟨rfl, fun a => by
    have hn := n.isLt
    match a with
    | ⟨0, _⟩ => show 0 + 2048 ≤ 2048; omega
    | ⟨1, _⟩ => show 64 * n.val + 64 ≤ 1024; omega⟩

/-- Head n's context block, of the query, key and value blocks. -/
def headAt (q : FVec F S512x1024 .bf16) (k v : FVec F S2048x1024 .bf16) (n : Fin 16) : FVec F S512x64 .f32 :=
  headTerm (64 * n.val) (sliceQ n) (sliceK n) q k v

/-! ## The sixteen printed heads are the generic head at offsets 0, 64, ..., 960 -/

theorem head0_eq (x0 : Vec F S1x512x1024 .bf16) (x1 x2 : Vec F S1x2048x1024 .bf16) :
    k1_pay6 x0 x1 x2 = headAt (k1_pay3 x0) (k1_pay4 x1) (k1_pay5 x2) 0 := rfl
theorem head1_eq (x0 : Vec F S1x512x1024 .bf16) (x1 x2 : Vec F S1x2048x1024 .bf16) :
    k1_pay9 (k1_pay7 x2) (k1_pay8 x0 x1) (constant S512x64 .f32 0x00000000#32)
      = headAt (k1_pay3 x0) (k1_pay4 x1) (k1_pay5 x2) 1 := rfl
theorem head2_eq (q : FVec F S512x1024 .bf16) (k v : FVec F S2048x1024 .bf16) : k1_pay10 q k v = headAt q k v 2 := rfl
theorem head3_eq (q : FVec F S512x1024 .bf16) (k v : FVec F S2048x1024 .bf16) : k1_pay11 q k v = headAt q k v 3 := rfl
theorem head4_eq (q : FVec F S512x1024 .bf16) (k v : FVec F S2048x1024 .bf16) :
    k1_pay14 (k1_pay12 v) (k1_pay13 q k) = headAt q k v 4 := rfl
theorem head5_eq (q : FVec F S512x1024 .bf16) (k v : FVec F S2048x1024 .bf16) : k1_pay15 q k v = headAt q k v 5 := rfl
theorem head6_eq (q : FVec F S512x1024 .bf16) (k v : FVec F S2048x1024 .bf16) : k1_pay16 q k v = headAt q k v 6 := rfl
theorem head7_eq (q : FVec F S512x1024 .bf16) (k v : FVec F S2048x1024 .bf16) :
    k1_pay19 (k1_pay17 v) (k1_pay18 q k) = headAt q k v 7 := rfl
theorem head8_eq (q : FVec F S512x1024 .bf16) (k v : FVec F S2048x1024 .bf16) : k1_pay20 q k v = headAt q k v 8 := rfl
theorem head9_eq (q : FVec F S512x1024 .bf16) (k v : FVec F S2048x1024 .bf16) : k1_pay21 q k v = headAt q k v 9 := rfl
theorem head10_eq (q : FVec F S512x1024 .bf16) (k v : FVec F S2048x1024 .bf16) :
    k1_pay25 (k1_pay22 q) (k1_pay23 k) (k1_pay24 v) = headAt q k v 10 := rfl
theorem head11_eq (q : FVec F S512x1024 .bf16) (k v : FVec F S2048x1024 .bf16) : k1_pay26 q k v = headAt q k v 11 := rfl
theorem head12_eq (q : FVec F S512x1024 .bf16) (k v : FVec F S2048x1024 .bf16) :
    k1_pay29 (k1_pay27 v) (k1_pay28 q k) = headAt q k v 12 := rfl
theorem head13_eq (q : FVec F S512x1024 .bf16) (k v : FVec F S2048x1024 .bf16) : k1_pay30 q k v = headAt q k v 13 := rfl
theorem head14_eq (q : FVec F S512x1024 .bf16) (k v : FVec F S2048x1024 .bf16) : k1_pay31 q k v = headAt q k v 14 := rfl
theorem head15_eq (q : FVec F S512x1024 .bf16) (k v : FVec F S2048x1024 .bf16) :
    k1_pay1 (k1_pay32 v) (k1_pay33 q k) = headAt q k v 15 := rfl

/-! ## The operand indices of a matrix product off its contracted axis -/

/-- On a left axis that is kept, the left operand's index is the result index at that axis's place. -/
theorem lhsIdx_val_non {sl sr so : Shape} (D : DotDims sl sr so) (a : Fin sl.rank) (p : Fin so.rank)
    (hb : a ∉ D.lhsBatch) (hn : a ∈ D.lhsNonContracting)
    (hp : D.lhsBatch.length + D.lhsNonContracting.idxOf a = p.val) (j : so.Idx) (k : D.contr.Idx) :
    (D.lhsIdx j k a).val = (j p).val := by
  unfold DotDims.lhsIdx
  rw [dif_neg hb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ p.isLt hp

/-- On a right axis that is kept, the right operand's index is the result index at that axis's place. -/
theorem rhsIdx_val_non {sl sr so : Shape} (D : DotDims sl sr so) (a : Fin sr.rank) (p : Fin so.rank)
    (hb : a ∉ D.rhsBatch) (hn : a ∈ D.rhsNonContracting)
    (hp : D.lhsBatch.length + D.lhsNonContracting.length + D.rhsNonContracting.idxOf a = p.val) (j : so.Idx)
    (k : D.contr.Idx) : (D.rhsIdx j k a).val = (j p).val := by
  unfold DotDims.rhsIdx
  rw [dif_neg hb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ p.isLt hp

/-! ## The three matrix products into a zero accumulator, read at an entry -/

/-- Query rows against key rows: entry (r, c) is the sum over the 64 lanes of q[r, k] * k[c, k]. -/
theorem logits_at (a : FVec Ideal S512x64 .bf16) (b : FVec Ideal S2048x64 .bf16) (r : Fin 512) (c : Fin 2048) :
    matmul dot_S512x64_S2048x64_S512x2048_1_1_0_0_n_n none a b (constant (F := Ideal) S512x2048 .f32 0x00000000#32) (ix2 r c)
      = ∑ k : Fin 64, a (ix2 r k) * b (ix2 c k) := by
  refine (Ideal.matmul_constant_zero_apply dot_S512x64_S2048x64_S512x2048_1_1_0_0_n_n none a b (ix2 r c)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k :=
    funext fun ax => Fin.ext (by
      match ax with
      | ⟨0, _⟩ => exact lhsIdx_val_non dot_S512x64_S2048x64_S512x2048_1_1_0_0_n_n 0 0 (by decide) (by decide) (by decide) _ _
      | ⟨1, _⟩ => exact (dot_S512x64_S2048x64_S512x2048_1_1_0_0_n_n.lhsIdx_val_of_single rfl _ _).trans hk)
  have er : dot_S512x64_S2048x64_S512x2048_1_1_0_0_n_n.rhsIdx (ix2 r c) ((contrEquiv1 dot_S512x64_S2048x64_S512x2048_1_1_0_0_n_n 64 rfl rfl).symm k) = ix2 c k :=
    funext fun ax => Fin.ext (by
      match ax with
      | ⟨0, _⟩ => exact rhsIdx_val_non dot_S512x64_S2048x64_S512x2048_1_1_0_0_n_n 0 1 (by decide) (by decide) (by decide) _ _
      | ⟨1, _⟩ => exact (dot_S512x64_S2048x64_S512x2048_1_1_0_0_n_n.rhsIdx_val_of_single rfl _ _).trans hk)
  rw [el, er]

/-- Weights against value columns: entry (r, c) is the sum over the 2048 keys of w[r, k] * v[k, c]. -/
theorem ctx_mm_at (a : FVec Ideal S512x2048 .bf16) (b : FVec Ideal S2048x64 .bf16) (r : Fin 512) (c : Fin 64) :
    matmul dot_S512x2048_S2048x64_S512x64_1_0_0_1_n_n none a b (constant (F := Ideal) S512x64 .f32 0x00000000#32) (ix2 r c)
      = ∑ k : Fin 2048, a (ix2 r k) * b (ix2 k c) := by
  refine (Ideal.matmul_constant_zero_apply dot_S512x2048_S2048x64_S512x64_1_0_0_1_n_n none a b (ix2 r c)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r c) ((contrEquiv1 dot_S512x2048_S2048x64_S512x64_1_0_0_1_n_n 2048 rfl rfl).symm k) = ix2 r k :=
    funext fun ax => Fin.ext (by
      match ax with
      | ⟨0, _⟩ => exact lhsIdx_val_non dot_S512x2048_S2048x64_S512x64_1_0_0_1_n_n 0 0 (by decide) (by decide) (by decide) _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 r c) ((contrEquiv1 dot_S512x2048_S2048x64_S512x64_1_0_0_1_n_n 2048 rfl rfl).symm k) = ix2 k c :=
    funext fun ax => Fin.ext (by
      match ax with
      | ⟨0, _⟩ => exact (dot_S512x2048_S2048x64_S512x64_1_0_0_1_n_n.rhsIdx_val_of_single rfl _ _).trans hk
      | ⟨1, _⟩ => exact rhsIdx_val_non dot_S512x2048_S2048x64_S512x64_1_0_0_1_n_n 1 1 (by decide) (by decide) (by decide) _ _)
  rw [el, er]

/-- Context rows against the rows of the output weights: entry (r, c) is the sum over the 1024 columns of x[r, k] * w[c, k]. -/
theorem outproj_mm_at (a : FVec Ideal S512x1024 .bf16) (b : FVec Ideal S1024x1024 .bf16) (r : Fin 512) (c : Fin 1024) :
    matmul dot_S512x1024_S1024x1024_S512x1024_1_1_0_0_n_n none a b (constant (F := Ideal) S512x1024 .f32 0x00000000#32) (ix2 r c)
      = ∑ k : Fin 1024, a (ix2 r k) * b (ix2 c k) := by
  refine (Ideal.matmul_constant_zero_apply dot_S512x1024_S1024x1024_S512x1024_1_1_0_0_n_n none a b (ix2 r c)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r c) ((contrEquiv1 dot_S512x1024_S1024x1024_S512x1024_1_1_0_0_n_n 1024 rfl rfl).symm k) = ix2 r k :=
    funext fun ax => Fin.ext (by
      match ax with
      | ⟨0, _⟩ => exact lhsIdx_val_non dot_S512x1024_S1024x1024_S512x1024_1_1_0_0_n_n 0 0 (by decide) (by decide) (by decide) _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 r c) ((contrEquiv1 dot_S512x1024_S1024x1024_S512x1024_1_1_0_0_n_n 1024 rfl rfl).symm k) = ix2 c k :=
    funext fun ax => Fin.ext (by
      match ax with
      | ⟨0, _⟩ => exact rhsIdx_val_non dot_S512x1024_S1024x1024_S512x1024_1_1_0_0_n_n 0 1 (by decide) (by decide) (by decide) _ _
      | ⟨1, _⟩ => exact (dot_S512x1024_S1024x1024_S512x1024_1_1_0_0_n_n.rhsIdx_val_of_single rfl _ _).trans hk)
  rw [el, er]

/-! ## The softmax stages, read at an entry -/

/-- Head n's scaled logits are the specification's, row by row. -/
theorem scores_at (n : Fin 16) (q : FVec Ideal S512x1024 .bf16) (k : FVec Ideal S2048x1024 .bf16) (r : Fin 512)
    (t : Fin 2048) :
    scores (64 * n.val) (sliceQ n) (sliceK n) q k (ix2 r t)
      = Cert.Attn.scoreRow (fun c => q (ix2 r c)) (fun t c => k (ix2 t c)) n t := by
  unfold scores Cert.Attn.scoreRow
  rw [mulf_apply, broadcast_apply, logits_at]
  refine congrArg₂ (· * ·) (Finset.sum_congr rfl fun d _ => ?_) Cert.Attn.ofBits_eighth
  rw [slice2_axis1_apply (64 * n.val) q (sliceQ n) r d (Cert.Attn.col n d)
      (by show n.val * 64 + d.val = 64 * n.val + d.val; omega),
    slice2_axis1_apply (64 * n.val) k (sliceK n) t d (Cert.Attn.col n d)
      (by show n.val * 64 + d.val = 64 * n.val + d.val; omega)]

/-- A row's maximum is the fold of max from bottom over the row. -/
theorem rowMax_at (s : FVec Ideal S512x2048 .f32) (r : Fin 512) :
    rowMax s (ix1 r) = (Finset.univ : Finset (Fin 2048)).fold max ⊥ (fun t => s (ix2 r t)) := by
  unfold rowMax
  refine (Cert.RowReads.rowMax_apply s 0xFF800000#32 reduces_S512x2048_S512 (.inl rfl) rfl r).trans ?_
  rw [Cert.Attn.ofBits_neg_inf]

/-- A row's sum. -/
theorem rowSum_at (e : FVec Ideal S512x2048 .f32) (r : Fin 512) :
    rowSum e (ix1 r) = ∑ t : Fin 2048, e (ix2 r t) := by
  unfold rowSum
  exact Cert.RowReads.rowSum_apply e 0x00000000#32 reduces_S512x2048_S512 (.inl rfl) rfl r

/-- A per-row value spread along the row reads the row's value at every key. -/
theorem spread_at (m : FVec Ideal S512 .f32) (r : Fin 512) (t : Fin 2048) : spread m (ix2 r t) = m (ix1 r) := by
  unfold spread
  rw [Cert.Keepdims.broadcastTo_a1_ab_apply, Cert.Keepdims.shapeCast_a_a1_apply]

/-- The shifted logits. -/
theorem shifted_at (s : FVec Ideal S512x2048 .f32) (r : Fin 512) (t : Fin 2048) :
    shifted s (ix2 r t) = s (ix2 r t) - (Finset.univ : Finset (Fin 2048)).fold max ⊥ (fun t' => s (ix2 r t')) := by
  unfold shifted
  rw [subf_apply, spread_at, rowMax_at]

/-- The exponential acts entry by entry. -/
theorem exp_at (s : FVec Ideal S512x2048 .f32) (i : S512x2048.Idx) : exp s i = Ideal.exp (s i) := rfl

/-- The weights: each entry over its row's sum. -/
theorem weights_at (e : FVec Ideal S512x2048 .f32) (r : Fin 512) (t : Fin 2048) :
    weights e (ix2 r t) = Ideal.div (e (ix2 r t)) (∑ t' : Fin 2048, e (ix2 r t')) := by
  unfold weights
  rw [truncf_apply, divf_apply, spread_at, rowSum_at]

/-- Head n's shifted exponentials are the specification's. -/
theorem expo_at (n : Fin 16) (q : FVec Ideal S512x1024 .bf16) (k : FVec Ideal S2048x1024 .bf16) (r : Fin 512)
    (t : Fin 2048) :
    exp (shifted (scores (64 * n.val) (sliceQ n) (sliceK n) q k)) (ix2 r t)
      = Cert.Attn.expRow (fun c => q (ix2 r c)) (fun t c => k (ix2 t c)) n t := by
  unfold Cert.Attn.expRow Cert.Attn.maxRow
  rw [exp_at, shifted_at, scores_at]
  refine congrArg (fun f => Ideal.exp (_ - Finset.fold max ⊥ f (Finset.univ : Finset (Fin 2048)))) ?_
  exact funext fun t' => scores_at n q k r t'

/-- Head n's context block at (r, d): the softmax weights of row r against column 64 n + d of the values. -/
theorem headAt_at (q : FVec Ideal S512x1024 .bf16) (k v : FVec Ideal S2048x1024 .bf16) (n : Fin 16) (r : Fin 512)
    (d : Fin 64) :
    headAt q k v n (ix2 r d)
      = ∑ t : Fin 2048, Cert.Attn.probRow (fun c => q (ix2 r c)) (fun t c => k (ix2 t c)) n t
          * v (ix2 t (Cert.Attn.col n d)) := by
  unfold headAt headTerm ctx
  rw [ctx_mm_at]
  refine Finset.sum_congr rfl fun t _ => ?_
  unfold Cert.Attn.probRow
  rw [weights_at, expo_at, slice2_axis1_apply (64 * n.val) v (sliceK n) t d (Cert.Attn.col n d)
      (by show n.val * 64 + d.val = 64 * n.val + d.val; omega)]
  refine congrArg (fun s => Ideal.div _ s * _) (Finset.sum_congr rfl fun t' _ => ?_)
  exact expo_at n q k r t'

/-! ## The sixteen blocks side by side -/

/-- A list of sixteen entries given by a function on Fin 16, written out. -/
theorem ofFn16 {β : Type} (f : Fin 16 → β) :
    List.ofFn f = [f 0, f 1, f 2, f 3, f 4, f 5, f 6, f 7, f 8, f 9, f 10, f 11, f 12, f 13, f 14, f 15] := rfl

/-- A concatenation depends only on its list of pieces. -/
theorem concatenate_congr {β : Type} {t : Shape} {a : Fin t.rank} {xs ys : List ((s : Shape) × (s.Idx → β))}
    (e : xs = ys) (h : Shape.Concatenates (xs.map (·.1)) t a) :
    concatenate t a xs h = concatenate t a ys (e ▸ h) := by subst e; rfl

/-- The printed list of blocks is the list of the sixteen heads' blocks in order. -/
theorem pieces_eq (x0 : Vec F S1x512x1024 .bf16) (x1 x2 : Vec F S1x2048x1024 .bf16) :
    ([⟨S512x64, (k1_pay6 x0 x1 x2)⟩,
      ⟨S512x64, (k1_pay9 (k1_pay7 x2) (k1_pay8 x0 x1) (constant S512x64 .f32 0x00000000#32))⟩,
      ⟨S512x64, (k1_pay10 (k1_pay3 x0) (k1_pay4 x1) (k1_pay5 x2))⟩,
      ⟨S512x64, (k1_pay11 (k1_pay3 x0) (k1_pay4 x1) (k1_pay5 x2))⟩,
      ⟨S512x64, (k1_pay14 (k1_pay12 (k1_pay5 x2)) (k1_pay13 (k1_pay3 x0) (k1_pay4 x1)))⟩,
      ⟨S512x64, (k1_pay15 (k1_pay3 x0) (k1_pay4 x1) (k1_pay5 x2))⟩,
      ⟨S512x64, (k1_pay16 (k1_pay3 x0) (k1_pay4 x1) (k1_pay5 x2))⟩,
      ⟨S512x64, (k1_pay19 (k1_pay17 (k1_pay5 x2)) (k1_pay18 (k1_pay3 x0) (k1_pay4 x1)))⟩,
      ⟨S512x64, (k1_pay20 (k1_pay3 x0) (k1_pay4 x1) (k1_pay5 x2))⟩,
      ⟨S512x64, (k1_pay21 (k1_pay3 x0) (k1_pay4 x1) (k1_pay5 x2))⟩,
      ⟨S512x64, (k1_pay25 (k1_pay22 (k1_pay3 x0)) (k1_pay23 (k1_pay4 x1)) (k1_pay24 (k1_pay5 x2)))⟩,
      ⟨S512x64, (k1_pay26 (k1_pay3 x0) (k1_pay4 x1) (k1_pay5 x2))⟩,
      ⟨S512x64, (k1_pay29 (k1_pay27 (k1_pay5 x2)) (k1_pay28 (k1_pay3 x0) (k1_pay4 x1)))⟩,
      ⟨S512x64, (k1_pay30 (k1_pay3 x0) (k1_pay4 x1) (k1_pay5 x2))⟩,
      ⟨S512x64, (k1_pay31 (k1_pay3 x0) (k1_pay4 x1) (k1_pay5 x2))⟩,
      ⟨S512x64, (k1_pay1 (k1_pay32 (k1_pay5 x2)) (k1_pay33 (k1_pay3 x0) (k1_pay4 x1)))⟩] : List ((s : Shape) × (s.Idx → F .f32)))
      = List.ofFn fun n : Fin 16 =>
          (⟨S512x64, headAt (k1_pay3 x0) (k1_pay4 x1) (k1_pay5 x2) n⟩ : (s : Shape) × (s.Idx → F .f32)) := by
  rw [ofFn16, head0_eq, head1_eq, head2_eq, head3_eq, head4_eq, head5_eq, head6_eq, head7_eq, head8_eq, head9_eq,
    head10_eq, head11_eq, head12_eq, head13_eq, head14_eq, head15_eq]

/-- Column c of the sixteen blocks side by side is lane c % 64 of head c / 64's block. -/
theorem concat_at (q : FVec Ideal S512x1024 .bf16) (k v : FVec Ideal S2048x1024 .bf16)
    (h : Shape.Concatenates ((List.ofFn fun n : Fin 16 =>
      (⟨S512x64, headAt q k v n⟩ : (s : Shape) × (s.Idx → Ideal .f32))).map (·.1)) S512x1024 1)
    (r : Fin 512) (c : Fin 1024) :
    concatenate S512x1024 1 (List.ofFn fun n : Fin 16 =>
        (⟨S512x64, headAt q k v n⟩ : (s : Shape) × (s.Idx → Ideal .f32))) h (ix2 r c)
      = headAt q k v (Cert.Attn.hd c) (ix2 r (Cert.Attn.ln c)) :=
  concatenate_ofFn_apply (1 : Fin S512x1024.rank) (headAt q k v) h rfl 64 rfl (ix2 r c) (Cert.Attn.hd c) rfl
    (ix2 r (Cert.Attn.ln c)) rfl (fun b hb => by
      match b with
      | ⟨0, _⟩ => rfl
      | ⟨1, _⟩ => exact absurd rfl hb)

/-! ## The output projection and the whole block -/

/-- The projected block at (0, r, o): row r of its operand against row o of the output weights, plus the bias. -/
theorem outproj_at (cc : FVec Ideal S512x1024 .f32) (wo : Vec Ideal S1024x1024 .f32) (bo : Vec Ideal S1024 .f32)
    (r : Fin 512) (o : Fin 1024) :
    k1_pay2 cc wo bo (ix3 (0 : Fin 1) r o) = (∑ c : Fin 1024, cc (ix2 r c) * wo (ix2 o c)) + bo (ix1 o) := by
  show shapeCast S1x512x1024 (addf (matmul dot_S512x1024_S1024x1024_S512x1024_1_1_0_0_n_n none
      (truncf .bf16 cc bitsLt_bf16_f32) (truncf .bf16 wo bitsLt_bf16_f32)
      (constant (F := Ideal) S512x1024 .f32 0x00000000#32))
      (broadcastTo S512x1024 (shapeCast S1x1024 bo shapeCasts_S1024_S1x1024) broadcasts_S1x1024_S512x1024))
      shapeCasts_S512x1024_S1x512x1024 (ix3 (0 : Fin 1) r o) = _
  rw [shapeCast_ab_1ab_apply, addf_apply, outproj_mm_at, broadcastTo_1b_ab_apply, shapeCast_a_1a_apply]
  rfl

/-- The query block without its unit axis. -/
theorem q_at (x0 : Vec Ideal S1x512x1024 .bf16) (r : Fin 512) (c : Fin 1024) :
    k1_pay3 x0 (ix2 r c) = x0 (ix3 (0 : Fin 1) r c) := shapeCast_1ab_ab_apply x0 _ r c
/-- The key block without its unit axis. -/
theorem k_at (x1 : Vec Ideal S1x2048x1024 .bf16) (t : Fin 2048) (c : Fin 1024) :
    k1_pay4 x1 (ix2 t c) = x1 (ix3 (0 : Fin 1) t c) := shapeCast_1ab_ab_apply x1 _ t c
/-- The value block without its unit axis. -/
theorem v_at (x2 : Vec Ideal S1x2048x1024 .bf16) (t : Fin 2048) (c : Fin 1024) :
    k1_pay5 x2 (ix2 t c) = x2 (ix3 (0 : Fin 1) t c) := shapeCast_1ab_ab_apply x2 _ t c

/-- The kernel body's stored block, read at (0, r, o), is the specification's output row of query row r. -/
theorem block_at (x0 : Vec Ideal S1x512x1024 .bf16) (x1 x2 : Vec Ideal S1x2048x1024 .bf16)
    (x3 : Vec Ideal S1024x1024 .f32) (x4 : Vec Ideal S1024 .f32) (r : Fin 512) (o : Fin 1024) :
    k1_pay2 (concatenate S512x1024 1 [⟨S512x64, (k1_pay6 x0 x1 x2)⟩,
      ⟨S512x64, (k1_pay9 (k1_pay7 x2) (k1_pay8 x0 x1) (constant S512x64 .f32 0x00000000#32))⟩,
      ⟨S512x64, (k1_pay10 (k1_pay3 x0) (k1_pay4 x1) (k1_pay5 x2))⟩,
      ⟨S512x64, (k1_pay11 (k1_pay3 x0) (k1_pay4 x1) (k1_pay5 x2))⟩,
      ⟨S512x64, (k1_pay14 (k1_pay12 (k1_pay5 x2)) (k1_pay13 (k1_pay3 x0) (k1_pay4 x1)))⟩,
      ⟨S512x64, (k1_pay15 (k1_pay3 x0) (k1_pay4 x1) (k1_pay5 x2))⟩,
      ⟨S512x64, (k1_pay16 (k1_pay3 x0) (k1_pay4 x1) (k1_pay5 x2))⟩,
      ⟨S512x64, (k1_pay19 (k1_pay17 (k1_pay5 x2)) (k1_pay18 (k1_pay3 x0) (k1_pay4 x1)))⟩,
      ⟨S512x64, (k1_pay20 (k1_pay3 x0) (k1_pay4 x1) (k1_pay5 x2))⟩,
      ⟨S512x64, (k1_pay21 (k1_pay3 x0) (k1_pay4 x1) (k1_pay5 x2))⟩,
      ⟨S512x64, (k1_pay25 (k1_pay22 (k1_pay3 x0)) (k1_pay23 (k1_pay4 x1)) (k1_pay24 (k1_pay5 x2)))⟩,
      ⟨S512x64, (k1_pay26 (k1_pay3 x0) (k1_pay4 x1) (k1_pay5 x2))⟩,
      ⟨S512x64, (k1_pay29 (k1_pay27 (k1_pay5 x2)) (k1_pay28 (k1_pay3 x0) (k1_pay4 x1)))⟩,
      ⟨S512x64, (k1_pay30 (k1_pay3 x0) (k1_pay4 x1) (k1_pay5 x2))⟩,
      ⟨S512x64, (k1_pay31 (k1_pay3 x0) (k1_pay4 x1) (k1_pay5 x2))⟩,
      ⟨S512x64, (k1_pay1 (k1_pay32 (k1_pay5 x2)) (k1_pay33 (k1_pay3 x0) (k1_pay4 x1)))⟩]
        concatenates_S512x64_S512x64_S512x64_S512x64_S512x64_S512x64_S512x64_S512x64_S512x64_S512x64_S512x64_S512x64_S512x64_S512x64_S512x64_S512x64_S512x1024_d1) x3 x4 (ix3 (0 : Fin 1) r o)
      = Cert.Attn.outRow (fun c => x0 (ix3 (0 : Fin 1) r c)) (fun tk c => x1 (ix3 (0 : Fin 1) tk c))
          (fun tk c => x2 (ix3 (0 : Fin 1) tk c)) x3 x4 o := by
  rw [outproj_at]
  unfold Cert.Attn.outRow
  refine congrArg (· + x4 (ix1 o)) (Finset.sum_congr rfl fun c _ => congrArg (· * x3 (ix2 o c)) ?_)
  rw [concatenate_congr (pieces_eq x0 x1 x2)]
  refine (concat_at _ _ _ _ r c).trans ?_
  rw [headAt_at]
  unfold Cert.Attn.ctxRow
  rw [Cert.Attn.col_hd_ln]
  simp only [q_at, k_at, v_at]

/-- What the attention kernel's body leaves in its output block, read at (0, r, o): the specification's output row
    of the block's query row r against the batch entry's keys and values, at column o. -/
theorem out1_5_apply (x0 : Vec Ideal S1x512x1024 .bf16) (x1 x2 : Vec Ideal S1x2048x1024 .bf16)
    (x3 : Vec Ideal S1024x1024 .f32) (x4 : Vec Ideal S1024 .f32) (r : Fin 512) (o : Fin 1024) :
    Cert.KernelIdeal.Gen.out1_5 (F := Ideal) x0 x1 x2 x3 x4 (ix3 (0 : Fin 1) r o)
      = Cert.Attn.outRow (fun c => x0 (ix3 (0 : Fin 1) r c)) (fun tk c => x1 (ix3 (0 : Fin 1) tk c))
          (fun tk c => x2 (ix3 (0 : Fin 1) tk c)) x3 x4 o := by
  have hz3 : (![0, 0, 0] : Fin 3 → Nat) = fun _ => 0 := by funext a; fin_cases a <;> rfl
  have hz2 : (![0, 0] : Fin 2 → Nat) = fun _ => 0 := by funext a; fin_cases a <;> rfl
  have hz1 : (![0] : Fin 1 → Nat) = fun _ => 0 := by funext a; fin_cases a <;> rfl
  unfold Cert.KernelIdeal.Gen.out1_5
  rw [View.canon_unit_zero hz3]
  have e0 : View.ld x0 r1_0 = x0 := View.ld_unit_zero (S := S1x512x1024) hz3 _ x0
  have e1 : View.ld x1 r1_1 = x1 := View.ld_unit_zero (S := S1x2048x1024) hz3 _ x1
  have e2 : View.ld x2 r1_1 = x2 := View.ld_unit_zero (S := S1x2048x1024) hz3 _ x2
  have e3 : View.ld x3 r1_2 = x3 := View.ld_unit_zero (S := S1024x1024) hz2 _ x3
  have e4 : View.ld x4 r1_3 = x4 := View.ld_unit_zero (S := S1024) hz1 _ x4
  rw [e0, e1, e2, e3, e4]
  exact block_at x0 x1 x2 x3 x4 r o

end Cert.KernelIdeal.AttnBlock

end
-- ==== Proof.AttnArrays.lean ====
/-
  The second region's result array. Grid point (b, i) stages rows [512 i, 512 i + 512) of batch entry b of the
  query array, the whole key and value matrices of batch entry b, the whole output weights and bias, and writes the
  [1, 512, 1024] block of output rows back at (b, i, 0); the blocks tile [4, 2048, 1024], so the result array holds,
  at (b, t, o), entry o of the attention output row of query row (b, t) against the keys and values of batch entry b.
-/
import proofs.«143338_j5093831213592_2_alg».proof.Proof.Gen.KernelIdeal.Frame
import proofs.«143338_j5093831213592_2_alg».proof.Proof.AttnBlock
import proofs.«143338_j5093831213592_2_alg».proof.Proof.AttnSpec
import Idealize.ShloMosaic.Lib.Pipeline.Value
import Idealize.ShloMosaic.Lib.ValueIdx

set_option maxRecDepth 16384

noncomputable section

namespace Cert.KernelIdeal.AttnArrays

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-- The output row of every query row: the array function of the query, key and value arrays, the output weights
    and the output bias. -/
def oArr (Q K Vv : Vec Ideal S4x2048x1024 .bf16) (Wo : Vec Ideal S1024x1024 .f32) (Bo : Vec Ideal S1024 .f32) :
    S4x2048x1024.Idx → EReal :=
  fun i => Cert.Attn.outRow
    (fun c' => Q (ix3 (⟨(i 0).val, (i 0).isLt⟩ : Fin 4) (⟨(i 1).val, (i 1).isLt⟩ : Fin 2048) c'))
    (fun tk c' => K (ix3 (⟨(i 0).val, (i 0).isLt⟩ : Fin 4) tk c'))
    (fun tk c' => Vv (ix3 (⟨(i 0).val, (i 0).isLt⟩ : Fin 4) tk c'))
    Wo Bo ⟨(i 2).val, (i 2).isLt⟩

/-- The block against the whole arrays: when the block's query rows are rows of Q, its key and value rows those of
    the same batch entry of K and V, the staged weights and bias the whole arrays and the column the same, the
    block's entry is the array function's. -/
theorem point5 (Q K Vv : Vec Ideal S4x2048x1024 .bf16) (Wo : Vec Ideal S1024x1024 .f32) (Bo : Vec Ideal S1024 .f32)
    (x0 : Vec Ideal S1x512x1024 .bf16) (x1 x2 : Vec Ideal S1x2048x1024 .bf16) (x3 : Vec Ideal S1024x1024 .f32)
    (x4 : Vec Ideal S1024 .f32) (y : S1x512x1024.Idx) (i : S4x2048x1024.Idx)
    (hx0 : ∀ c' : Fin 1024, x0 (ix3 (0 : Fin 1) (⟨(y 1).val, (y 1).isLt⟩ : Fin 512) c')
      = Q (ix3 (⟨(i 0).val, (i 0).isLt⟩ : Fin 4) (⟨(i 1).val, (i 1).isLt⟩ : Fin 2048) c'))
    (hx1 : ∀ (tk : Fin 2048) (c' : Fin 1024), x1 (ix3 (0 : Fin 1) tk c') = K (ix3 (⟨(i 0).val, (i 0).isLt⟩ : Fin 4) tk c'))
    (hx2 : ∀ (tk : Fin 2048) (c' : Fin 1024), x2 (ix3 (0 : Fin 1) tk c') = Vv (ix3 (⟨(i 0).val, (i 0).isLt⟩ : Fin 4) tk c'))
    (hx3 : x3 = Wo) (hx4 : x4 = Bo) (h2 : (i 2).val = (y 2).val) :
    out1_5 (F := Ideal) x0 x1 x2 x3 x4 y = oArr Q K Vv Wo Bo i := by
  have hy : y = ix3 (0 : Fin 1) (⟨(y 1).val, (y 1).isLt⟩ : Fin 512) (⟨(y 2).val, (y 2).isLt⟩ : Fin 1024) := by
    funext a; apply Fin.ext
    match a with
    | ⟨0, _⟩ => have h : (y 0).val < 1 := (y 0).isLt; show (y 0).val = 0; omega
    | ⟨1, _⟩ => rfl
    | ⟨2, _⟩ => rfl
  refine (congrArg (out1_5 (F := Ideal) x0 x1 x2 x3 x4) hy).trans ?_
  refine (Cert.KernelIdeal.AttnBlock.out1_5_apply x0 x1 x2 x3 x4 (⟨(y 1).val, (y 1).isLt⟩ : Fin 512)
    (⟨(y 2).val, (y 2).isLt⟩ : Fin 1024)).trans ?_
  subst hx3 hx4
  unfold oArr
  have e0 : (fun c' : Fin 1024 => x0 (ix3 (0 : Fin 1) (⟨(y 1).val, (y 1).isLt⟩ : Fin 512) c'))
      = fun c' => Q (ix3 (⟨(i 0).val, (i 0).isLt⟩ : Fin 4) (⟨(i 1).val, (i 1).isLt⟩ : Fin 2048) c') := funext hx0
  have e1 : (fun (tk : Fin 2048) (c' : Fin 1024) => x1 (ix3 (0 : Fin 1) tk c'))
      = fun tk c' => K (ix3 (⟨(i 0).val, (i 0).isLt⟩ : Fin 4) tk c') := funext fun tk => funext (hx1 tk)
  have e2 : (fun (tk : Fin 2048) (c' : Fin 1024) => x2 (ix3 (0 : Fin 1) tk c'))
      = fun tk c' => Vv (ix3 (⟨(i 0).val, (i 0).isLt⟩ : Fin 4) tk c') := funext fun tk => funext (hx2 tk)
  rw [e0, e1, e2]
  exact congrArg (Cert.Attn.outRow _ _ _ x3 x4) (Fin.ext h2.symm : (⟨(y 2).val, (y 2).isLt⟩ : Fin 1024) = ⟨(i 2).val, (i 2).isLt⟩)

variable (V : (c : Dev nD) → (b : Ref sig .tc) → Buf (Elt Ideal) ((c : Thread nD τ).loc b))

/-- The printed index maps, decided over the grid. -/
theorem idx_facts5 : ∀ t : Fin cfg1.N,
    win1_0.index t (0 : Fin 3) = win1_5.index t (0 : Fin 3) ∧ win1_0.index t (1 : Fin 3) = win1_5.index t (1 : Fin 3)
    ∧ win1_0.index t (2 : Fin 3) = 0 ∧ win1_5.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0 ∧ win1_4.index t (0 : Fin 1) = 0 :=
  (by decide +kernel : ∀ t : Fin grid1.N, _)

/-- Every (batch entry, row tile) is some point's block. -/
theorem idx_onto5 : ∀ (q0 : Fin 4) (q1 : Fin 4), ∃ t : Fin cfg1.N, win1_5.index t = ![q0.val, q1.val, 0] :=
  (by decide +kernel : ∀ (q0 : Fin 4) (q1 : Fin 4), ∃ t : Fin grid1.N, win1_5.index t = ![q0.val, q1.val, 0])

/-- What point t writes back is block t of the array function of the arrays as the region finds them. -/
theorem flushed5_eq (c : Dev nD) (t : Fin cfg1.N) :
    (dat1 V c).flushed 5 t = ((cfg1.win 5).blk t).view.read (Elt Ideal)
      (oArr (V c main_v6_0) (V c main_v6_1) (V c main_v6_2) (V c main_arg3) (V c main_arg4)) := by
  show (cfg1.win 5).cut (grid1.coords t) ((dat1 V c).after 5 t) = _
  rw [after1_5]
  obtain ⟨e0, e1, e2, e3, e4, e5, e6, e7, e8, e9, e10, e11, e12⟩ := idx_facts5 t
  funext y
  show out1_5 (iblk1 V c 0 t) (iblk1 V c 1 t) (iblk1 V c 2 t) (iblk1 V c 3 t) (iblk1 V c 4 t) y
    = oArr (V c main_v6_0) (V c main_v6_1) (V c main_v6_2) (V c main_arg3) (V c main_arg4) (((cfg1.win 5).blk t).view.emb y)
  have hy0 : (y 0).val < 1 := (y 0).isLt
  refine point5 _ _ _ _ _ _ _ _ _ _ y _ ?_ ?_ ?_ ?_ ?_ ?_
  · intro c'
    show V c main_v6_0 (((cfg1.win 0).blk t).view.emb (ix3 (0 : Fin 1) (⟨(y 1).val, (y 1).isLt⟩ : Fin 512) c')) = _
    refine congrArg (V c main_v6_0) (funext fun a => Fin.ext ?_)
    match a with
    | ⟨0, _⟩ =>
      show win1_0.index t (0 : Fin 3) * 1 + 1 * 0 = win1_5.index t (0 : Fin 3) * 1 + 1 * (y 0).val
      omega
    | ⟨1, _⟩ =>
      show win1_0.index t (1 : Fin 3) * 512 + 1 * (y 1).val = win1_5.index t (1 : Fin 3) * 512 + 1 * (y 1).val
      omega
    | ⟨2, _⟩ =>
      show win1_0.index t (2 : Fin 3) * 1024 + 1 * c'.val = c'.val
      omega
  · intro tk c'
    show V c main_v6_1 (((cfg1.win 1).blk t).view.emb (ix3 (0 : Fin 1) tk c')) = _
    refine congrArg (V c main_v6_1) (funext fun a => Fin.ext ?_)
    match a with
    | ⟨0, _⟩ =>
      show win1_1.index t (0 : Fin 3) * 1 + 1 * 0 = win1_5.index t (0 : Fin 3) * 1 + 1 * (y 0).val
      omega
    | ⟨1, _⟩ =>
      show win1_1.index t (1 : Fin 3) * 2048 + 1 * tk.val = tk.val
      omega
    | ⟨2, _⟩ =>
      show win1_1.index t (2 : Fin 3) * 1024 + 1 * c'.val = c'.val
      omega
  · intro tk c'
    show V c main_v6_2 (((cfg1.win 2).blk t).view.emb (ix3 (0 : Fin 1) tk c')) = _
    refine congrArg (V c main_v6_2) (funext fun a => Fin.ext ?_)
    match a with
    | ⟨0, _⟩ =>
      show win1_2.index t (0 : Fin 3) * 1 + 1 * 0 = win1_5.index t (0 : Fin 3) * 1 + 1 * (y 0).val
      omega
    | ⟨1, _⟩ =>
      show win1_2.index t (1 : Fin 3) * 2048 + 1 * tk.val = tk.val
      omega
    | ⟨2, _⟩ =>
      show win1_2.index t (2 : Fin 3) * 1024 + 1 * c'.val = c'.val
      omega
  · funext z
    show V c main_arg3 (((cfg1.win 3).blk t).view.emb z) = V c main_arg3 z
    refine congrArg (V c main_arg3) (funext fun a => Fin.ext ?_)
    match a with
    | ⟨0, _⟩ => show win1_3.index t (0 : Fin 2) * 1024 + 1 * (z 0).val = (z 0).val; omega
    | ⟨1, _⟩ => show win1_3.index t (1 : Fin 2) * 1024 + 1 * (z 1).val = (z 1).val; omega
  · funext z
    show V c main_arg4 (((cfg1.win 4).blk t).view.emb z) = V c main_arg4 z
    refine congrArg (V c main_arg4) (funext fun a => Fin.ext ?_)
    match a with
    | ⟨0, _⟩ => show win1_4.index t (0 : Fin 1) * 1024 + 1 * (z 0).val = (z 0).val; omega
  · show win1_5.index t (2 : Fin 3) * 1024 + 1 * (y 2).val = (y 2).val
    omega

/-- An index of the array is in point t's block iff each coordinate is in the block's range on its axis. -/
theorem mem_blk5 (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v7).slice (win1_5.rect t)).set ↔ _
  rw [View.set_slice_whole, Rect.mem_set_unit]
  exact Iff.rfl

/-- The blocks tile the array. -/
theorem cover5 (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := idx_onto5 ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- The array after the region. -/
theorem final5 (c : Dev nD) :
    (dat1 V c).arrAt 5 cfg1.N = oArr (V c main_v6_0) (V c main_v6_1) (V c main_v6_2) (V c main_arg3) (V c main_arg4) :=
  (dat1 V c).arrAt_eq_of_cover 5 _ (fun t _ => flushed5_eq V c t) (cover5)

end Cert.KernelIdeal.AttnArrays

end
-- ==== Proof.KernelRun.lean ====
/-
  The idealized kernel program's run, read: the result array after the two regions is the attention function of the
  five argument arrays. The first region finds the token array as launched and the weights and bias regrouped by
  the host operations before it; it leaves the query, key and value arrays (QkvArrays). The second region finds
  those three and the output weights and bias as launched, and leaves the result (AttnArrays).
-/
import proofs.«143338_j5093831213592_2_alg».proof.Proof.Gen.KernelIdeal.Frame
import proofs.«143338_j5093831213592_2_alg».proof.Proof.QkvArrays
import proofs.«143338_j5093831213592_2_alg».proof.Proof.AttnArrays
import proofs.«143338_j5093831213592_2_alg».proof.Proof.Regroup
import proofs.«143338_j5093831213592_2_alg».proof.Proof.AttnSpec
import Idealize.ShloMosaic.Lib.StableHlo.Run
import Idealize.ShloMosaic.Lib.Pipeline.Value
import Idealize.ShloMosaic.Lib.ValueIdx

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open Cert.KernelIdeal.QkvArrays (qArr)
open Cert.KernelIdeal.AttnArrays (oArr)

variable (m : (ℓ : Loc nD τ sig) → Buf (Elt Ideal) ℓ) (ρ : Dev nD → PrngReg)

local notation "𝕄" => MT nD τ sig Unit (Elt Ideal) ℕ (UR sig nD τ) ℕ

/-! ## What each region finds -/

/-- No host operation writes the token array. -/
theorem V1_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))).trans rfl

/-- The weights as the first region finds them: regrouped component by component. -/
theorem V1_v2 (c : Dev nD) : (V1 m ρ c main_v2 : S3072x1024.Idx → EReal)
    = shapeCast S3072x1024 (transpose S3x16x64x1024 [1, 0, 2, 3]
        (shapeCast S16x3x64x1024 (m ((c : Thread nD τ).loc main_arg1)) shapeCasts_S3072x1024_S16x3x64x1024)
        transposes_S16x3x64x1024_S3x16x64x1024_1_0_2_3) shapeCasts_S3x16x64x1024_S3072x1024 := by
  dsimp only [V1, W1, W0, hostOps0]
  after_results
  rfl

/-- The bias as the first region finds it: regrouped likewise. -/
theorem V1_v5 (c : Dev nD) : (V1 m ρ c main_v5 : S3072.Idx → EReal)
    = shapeCast S3072 (transpose S3x16x64 [1, 0, 2]
        (shapeCast S16x3x64 (m ((c : Thread nD τ).loc main_arg2)) shapeCasts_S3072_S16x3x64)
        transposes_S16x3x64_S3x16x64_1_0_2) shapeCasts_S3x16x64_S3072 := by
  dsimp only [V1, W1, W0, hostOps0]
  after_results
  rfl

/-- The second region finds the three arrays the first one left. -/
theorem V2_q (c : Dev nD) : V2 m ρ c main_v6_0 = (dat0 (V1 m ρ) c).arrAt 3 cfg0.N := W2_arr m ρ c 3
theorem V2_k (c : Dev nD) : V2 m ρ c main_v6_1 = (dat0 (V1 m ρ) c).arrAt 4 cfg0.N := W2_arr m ρ c 4
theorem V2_v (c : Dev nD) : V2 m ρ c main_v6_2 = (dat0 (V1 m ρ) c).arrAt 5 cfg0.N := W2_arr m ρ c 5

/-- Neither the host operations nor the first region write the output weights or the output bias. -/
theorem V2_arg3 (c : Dev nD) : V2 m ρ c main_arg3 = m ((c : Thread nD τ).loc main_arg3) :=
  (W2_of_ne m ρ c main_arg3 (by decide)).trans ((StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))).trans rfl)
theorem V2_arg4 (c : Dev nD) : V2 m ρ c main_arg4 = m ((c : Thread nD τ).loc main_arg4) :=
  (W2_of_ne m ρ c main_arg4 (by decide)).trans ((StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))).trans rfl)

/-- The result buffer after the second region is what its write-backs leave. -/
theorem W3_v7 (c : Dev nD) : W3 m ρ c (Proc.devRef .tc main_v7) = (dat1 (V2 m ρ) c).arrAt 5 cfg1.N := W3_arr m ρ c 5

/-! ## The result array is the attention function of the arguments -/

/-- Band comp of the projection through the regrouped weights and bias is component comp of the token. -/
theorem qArr_regroup (comp : Fin 3) (X : Vec Ideal S4x2048x1024 .f32) (W : Vec Ideal S3072x1024 .f32) (B : Vec Ideal S3072 .f32)
    (b : Fin 4) (t : Fin 2048) (c' : Fin 1024) :
    qArr comp X
      (shapeCast S3072x1024 (transpose S3x16x64x1024 [1, 0, 2, 3]
        (shapeCast S16x3x64x1024 W shapeCasts_S3072x1024_S16x3x64x1024)
        transposes_S16x3x64x1024_S3x16x64x1024_1_0_2_3) shapeCasts_S3x16x64x1024_S3072x1024)
      (shapeCast S3072 (transpose S3x16x64 [1, 0, 2]
        (shapeCast S16x3x64 B shapeCasts_S3072_S16x3x64)
        transposes_S16x3x64_S3x16x64_1_0_2) shapeCasts_S3x16x64_S3072)
      (ix3 b t c') = Cert.Attn.qkvAt X W B comp b t c' := by
  show Cert.Attn.proj X _ _ b t (Cert.Attn.Regroup.band comp c') = Cert.Attn.proj X W B b t (Cert.Attn.prow comp c')
  unfold Cert.Attn.proj
  rw [Cert.Attn.Regroup.bias_apply]
  congr 1
  exact Finset.sum_congr rfl fun j _ => by rw [Cert.Attn.Regroup.weights_apply]

/-- The output row depends on the query row and on the key and value matrices entry by entry. -/
theorem outRow_congr {qr qr' : Fin 1024 → EReal} {k k' v v' : Fin 2048 → Fin 1024 → EReal}
    (hq : ∀ c', qr c' = qr' c') (hk : ∀ tk c', k tk c' = k' tk c') (hv : ∀ tk c', v tk c' = v' tk c')
    (wo : FVec Ideal ⟨2, ![1024, 1024]⟩ .f32) (bo : FVec Ideal ⟨1, ![1024]⟩ .f32) (o : Fin 1024) :
    Cert.Attn.outRow qr k v wo bo o = Cert.Attn.outRow qr' k' v' wo bo o := by
  obtain rfl : qr = qr' := funext hq
  obtain rfl : k = k' := funext fun tk => funext (hk tk)
  obtain rfl : v = v' := funext fun tk => funext (hv tk)
  rfl

/-- The result buffer after the run. -/
theorem result_eq (c : Dev nD) :
    W3 m ρ c (Proc.devRef .tc main_v7)
      = Cert.Attn.out (m ((c : Thread nD τ).loc main_arg0)) (m ((c : Thread nD τ).loc main_arg1))
          (m ((c : Thread nD τ).loc main_arg2)) (m ((c : Thread nD τ).loc main_arg3)) (m ((c : Thread nD τ).loc main_arg4)) := by
  rw [W3_v7, Cert.KernelIdeal.AttnArrays.final5 (V2 m ρ) c, V2_q, V2_k, V2_v, V2_arg3, V2_arg4,
    Cert.KernelIdeal.QkvArrays.final3 (V1 m ρ) c, Cert.KernelIdeal.QkvArrays.final4 (V1 m ρ) c,
    Cert.KernelIdeal.QkvArrays.final5 (V1 m ρ) c, V1_arg0, V1_v2, V1_v5]
  funext i
  obtain ⟨b, t, o, rfl⟩ : ∃ (b : Fin 4) (t : Fin 2048) (o : Fin 1024), i = ix3 b t o := ⟨i 0, i 1, i 2, eq_ix3 i⟩
  rw [Cert.Attn.out_ix3]
  unfold Cert.Attn.outAt
  exact outRow_congr (fun c' => qArr_regroup 0 _ _ _ b t c') (fun tk c' => qArr_regroup 1 _ _ _ b tk c')
    (fun tk c' => qArr_regroup 2 _ _ _ b tk c') _ _ o

/-! ## The run -/

set_option backward.isDefEq.respectTransparency.types false in
/-- Every weakly fair execution of the program terminates without a fault, the result buffer at what the second
    region's write-backs leave and the argument arrays as launched: the launch over the program's segments, the last
    thread state read against the final state. -/
theorem run_value : θ_run defs (onTc (τ := τ) (main (F := Ideal))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The same with the result named as the attention function of the arguments. -/
theorem run : θ_run defs (onTc (τ := τ) (main (F := Ideal))) ⟨m, fun _ => 0, ρ⟩ (fun r => ∀ c : Dev nD,
      r.2.mem ((c.tc : Thread nD τ).loc main_v7)
        = Cert.Attn.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_value m ρ)

end Cert.KernelIdeal.KernelRun

end
-- ==== Proof.RefIsSpec.lean ====
import proofs.«143338_j5093831213592_2_alg».proof.Proof.Gen.ReferenceIdeal.Read
import proofs.«143338_j5093831213592_2_alg».proof.Proof.AttnSpec

/-!
# The reference program computes the attention specification

The reference is read one operation at a time: the projected rows, their head-major split into queries, keys and
values, the scaled logits, the row maximum, the shifted exponentials, their row sum, the softmax weights, the
context and the output projection. Each stage is identified, index by index, with the corresponding function of
the specification.
-/

noncomputable section

namespace Cert.RefSide

open Cert.ReferenceIdeal Cert.ReferenceIdeal.Gen Cert.ReferenceIdeal.Read Cert.Attn
open Idealize.ShloMosaic Idealize.ShloMosaic.ValueIdx

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The projection with its bias, at token (b, t) and entry o, is the specification's projected row. -/
theorem v3_eq (b : Fin 4) (t : Fin 2048) (o : Fin 3072) :
    val_main_v3 (F := Ideal) x0 x1 x2 (ix3 b t o) = proj x0 x1 x2 b t o := by
  rw [val_main_v3_apply, val_main_v0_apply, val_main_v2_apply, val_main_v1_apply]
  have el : ∀ k : Fin 1024, lidx_main_v0 (ix3 b t o) k = ix3 b t k := fun k => funext fun a => by
    match a with
    | ⟨0, _⟩ => rfl
    | ⟨1, _⟩ => rfl
    | ⟨2, _⟩ => rfl
  have er : ∀ k : Fin 1024, ridx_main_v0 (ix3 b t o) k = ix2 o k := fun k => funext fun a => by
    match a with
    | ⟨0, _⟩ => rfl
    | ⟨1, _⟩ => rfl
  have eb : idx_main_v1 (idx_main_v2 (ix3 b t o)) = ix1 o := funext fun a => by
    match a with
    | ⟨0, _⟩ => rfl
  simp only [el, er, eb, Ideal.addf_def]
  rfl

/-- The reshaped and transposed projection at (b, h, t, e) is entry 192 h + e of token (b, t)'s projected row. -/
theorem v5_eq (b : Fin 4) (h : Fin 16) (t : Fin 2048) (e : Fin 192) :
    val_main_v5 (F := Ideal) x0 x1 x2 (ix4 b h t e)
      = proj x0 x1 x2 b t ⟨h.val * 192 + e.val, by omega⟩ := by
  rw [val_main_v5_apply, val_main_v4_apply]
  have ei : idx_main_v4 (idx_main_v5 (ix4 b h t e)) = ix3 b t (⟨h.val * 192 + e.val, by omega⟩ : Fin 3072) :=
    funext fun a => Fin.ext (by
      have hb := b.isLt; have hh := h.isLt; have ht := t.isLt; have he := e.isLt
      match a with
      | ⟨0, _⟩ =>
        show (((b.val * 2048 + t.val) * 16 + h.val) * 192 + e.val) / 6291456 = b.val
        omega
      | ⟨1, _⟩ =>
        show (((b.val * 2048 + t.val) * 16 + h.val) * 192 + e.val) / 3072 % 2048 = t.val
        omega
      | ⟨2, _⟩ =>
        show (((b.val * 2048 + t.val) * 16 + h.val) * 192 + e.val) % 3072 = h.val * 192 + e.val
        omega)
  rw [ei, v3_eq]

/-- The query slice at (b, h, t, d) is component 0 of token (b, t) at column 64 h + d. -/
theorem v6_eq (b : Fin 4) (h : Fin 16) (t : Fin 2048) (d : Fin 64) :
    val_main_v6 (F := Ideal) x0 x1 x2 (ix4 b h t d) = qkvAt x0 x1 x2 0 b t (col h d) := by
  rw [val_main_v6_apply]
  have ei : idx_main_v6 (ix4 b h t d) = ix4 b h t (⟨d.val, by omega⟩ : Fin 192) := funext fun a => by
    match a with
    | ⟨0, _⟩ => rfl
    | ⟨1, _⟩ => rfl
    | ⟨2, _⟩ => rfl
    | ⟨3, _⟩ => rfl
  rw [ei, v5_eq]
  unfold qkvAt
  exact congrArg (proj x0 x1 x2 b t) (Fin.ext (by rw [prow_col_val]; show h.val * 192 + d.val = h.val * 192 + 0 * 64 + d.val; omega))

/-- The key slice at (b, h, t, d) is component 1 of token (b, t) at column 64 h + d. -/
theorem v7_eq (b : Fin 4) (h : Fin 16) (t : Fin 2048) (d : Fin 64) :
    val_main_v7 (F := Ideal) x0 x1 x2 (ix4 b h t d) = qkvAt x0 x1 x2 1 b t (col h d) := by
  rw [val_main_v7_apply]
  have ei : idx_main_v7 (ix4 b h t d) = ix4 b h t (⟨64 + d.val, by omega⟩ : Fin 192) := funext fun a => by
    match a with
    | ⟨0, _⟩ => rfl
    | ⟨1, _⟩ => rfl
    | ⟨2, _⟩ => rfl
    | ⟨3, _⟩ => rfl
  rw [ei, v5_eq]
  unfold qkvAt
  exact congrArg (proj x0 x1 x2 b t) (Fin.ext (by rw [prow_col_val]; show h.val * 192 + (64 + d.val) = h.val * 192 + 1 * 64 + d.val; omega))

/-- The value slice at (b, h, t, d) is component 2 of token (b, t) at column 64 h + d. -/
theorem v8_eq (b : Fin 4) (h : Fin 16) (t : Fin 2048) (d : Fin 64) :
    val_main_v8 (F := Ideal) x0 x1 x2 (ix4 b h t d) = qkvAt x0 x1 x2 2 b t (col h d) := by
  rw [val_main_v8_apply]
  have ei : idx_main_v8 (ix4 b h t d) = ix4 b h t (⟨128 + d.val, by omega⟩ : Fin 192) := funext fun a => by
    match a with
    | ⟨0, _⟩ => rfl
    | ⟨1, _⟩ => rfl
    | ⟨2, _⟩ => rfl
    | ⟨3, _⟩ => rfl
  rw [ei, v5_eq]
  unfold qkvAt
  exact congrArg (proj x0 x1 x2 b t) (Fin.ext (by rw [prow_col_val]; show h.val * 192 + (128 + d.val) = h.val * 192 + 2 * 64 + d.val; omega))

/-- The scaled logit at (b, h, q, k) is head h's logit of query row q against key k. -/
theorem v16_eq (b : Fin 4) (h : Fin 16) (q k : Fin 2048) :
    val_main_v16 (F := Ideal) x0 x1 x2 (ix4 b h q k)
      = scoreRow (qkvAt x0 x1 x2 0 b q) (qkvAt x0 x1 x2 1 b) h k := by
  rw [val_main_v16_apply, val_main_v13_apply, val_main_v15_apply, val_main_v14_apply, val_main_cst_0_apply]
  have el : ∀ d : Fin 64, lidx_main_v13 (ix4 b h q k) d = ix4 b h q d := fun d => funext fun a => by
    match a with
    | ⟨0, _⟩ => rfl
    | ⟨1, _⟩ => rfl
    | ⟨2, _⟩ => rfl
    | ⟨3, _⟩ => rfl
  have er : ∀ d : Fin 64, ridx_main_v13 (ix4 b h q k) d = ix4 b h k d := fun d => funext fun a => by
    match a with
    | ⟨0, _⟩ => rfl
    | ⟨1, _⟩ => rfl
    | ⟨2, _⟩ => rfl
    | ⟨3, _⟩ => rfl
  simp only [el, er, v6_eq, v7_eq, Ideal.hostDivf_def, Ideal.hostUnary_sqrt_def, Ideal.ofBits_def]
  rw [div_sqrt_64]
  rfl

/-- Putting key k back into the reduced index (b, h, q) gives (b, h, q, k). -/
theorem lift_key (hr : S4x16x2048x2048.Reduces [3] S4x16x2048) (b : Fin 4) (h : Fin 16) (q : Fin 2048)
    (k : Fin (S4x16x2048x2048.size 3)) : hr.lift (ix3 b h q) k = ix4 b h q (⟨k.val, k.isLt⟩ : Fin 2048) := by
  funext c; apply Fin.ext
  fin_cases c <;> rfl

/-- The host's maximum-reduce of a [4, 16, 2048, 2048] array along its last axis, read at (b, h, q): the fold of max
    over the row from the initial value's one element. -/
theorem hostKeyMax_apply (x : FVec Ideal S4x16x2048x2048 .f32) (init : FVec Ideal S_ .f32)
    (h' : S4x16x2048x2048.ReducesTo [3] S4x16x2048) (hr : S4x16x2048x2048.Reduces [3] S4x16x2048)
    (hu : 0 < S_.numel) (b : Fin 4) (h : Fin 16) (q : Fin 2048) :
    Host.reduce FloatOps.maximumf x init h' hu (ix3 b h q)
      = (Finset.univ : Finset (Fin 2048)).fold max (init (Shape.Idx.first hu)) (fun k => x (ix4 b h q k)) := by
  rw [Host.reduce_eq_fold_single FloatOps.maximumf x init h' hr hu]
  exact congrArg (fun f => Finset.fold max (init (Shape.Idx.first hu)) f (Finset.univ : Finset (Fin 2048)))
    (funext fun k => congrArg x (lift_key hr b h q k))

/-- The maximum-reduce over the keys at (b, h, q) is the fold of max from bottom over the row's logits. -/
theorem v17_eq (b : Fin 4) (h : Fin 16) (q : Fin 2048) :
    val_main_v17 (F := Ideal) x0 x1 x2 (ix3 b h q)
      = maxRow (qkvAt x0 x1 x2 0 b q) (qkvAt x0 x1 x2 1 b) h := by
  have hr : S4x16x2048x2048.Reduces [3] S4x16x2048 := by decide
  unfold val_main_v17
  refine (hostKeyMax_apply _ _ _ hr _ b h q).trans ?_
  have hf : (fun k : Fin 2048 => val_main_v16 (F := Ideal) x0 x1 x2 (ix4 b h q k))
      = scoreRow (qkvAt x0 x1 x2 0 b q) (qkvAt x0 x1 x2 1 b) h := funext fun k => v16_eq x0 x1 x2 b h q k
  have hi : val_main_cst_1 (F := Ideal) (Shape.Idx.first h_S_) = (⊥ : EReal) := by
    rw [val_main_cst_1_apply, Ideal.ofBits_def, ofBits_neg_inf]
  rw [hf, hi]
  rfl

/-- The row maximum, after the guard against an empty row, is still the row maximum. -/
theorem v19_eq (b : Fin 4) (h : Fin 16) (q : Fin 2048) :
    val_main_v19 (F := Ideal) x0 x1 x2 (ix3 b h q)
      = maxRow (qkvAt x0 x1 x2 0 b q) (qkvAt x0 x1 x2 1 b) h := by
  rw [val_main_v19_apply, val_main_v18_apply, val_main_cst_2_apply, v17_eq, Ideal.maximumf_def, Ideal.ofBits_def,
    ofBits_neg_inf]
  exact max_eq_right bot_le

/-- The shifted exponential at (b, h, q, k). -/
theorem v23_eq (b : Fin 4) (h : Fin 16) (q k : Fin 2048) :
    val_main_v23 (F := Ideal) x0 x1 x2 (ix4 b h q k)
      = expRow (qkvAt x0 x1 x2 0 b q) (qkvAt x0 x1 x2 1 b) h k := by
  rw [val_main_v23_apply, val_main_v22_apply, val_main_v21_apply, val_main_v20_apply]
  have ei : idx_main_v20 (idx_main_v21 (ix4 b h q k)) = ix3 b h q := funext fun a => by
    match a with
    | ⟨0, _⟩ => rfl
    | ⟨1, _⟩ => rfl
    | ⟨2, _⟩ => rfl
  rw [ei, v19_eq, v16_eq, Ideal.hostUnary_exp_def, Ideal.subf_def]
  rfl

/-- The row sum of the shifted exponentials at (b, h, q). -/
theorem v24_eq (b : Fin 4) (h : Fin 16) (q : Fin 2048) :
    val_main_v24 (F := Ideal) x0 x1 x2 (ix3 b h q)
      = ∑ k : Fin 2048, expRow (qkvAt x0 x1 x2 0 b q) (qkvAt x0 x1 x2 1 b) h k := by
  rw [val_main_v24_apply, val_main_cst_3_apply, Ideal.ofBits_def, Ideal.ofBits_zero_f32, zero_add]
  refine Finset.sum_congr rfl fun k _ => ?_
  have ei : idx_main_v24 (ix3 b h q) k = ix4 b h q k := funext fun a => by
    match a with
    | ⟨0, _⟩ => rfl
    | ⟨1, _⟩ => rfl
    | ⟨2, _⟩ => rfl
    | ⟨3, _⟩ => rfl
  rw [ei, v23_eq]

/-- The softmax weight at (b, h, q, k). -/
theorem v27_eq (b : Fin 4) (h : Fin 16) (q k : Fin 2048) :
    val_main_v27 (F := Ideal) x0 x1 x2 (ix4 b h q k)
      = probRow (qkvAt x0 x1 x2 0 b q) (qkvAt x0 x1 x2 1 b) h k := by
  rw [val_main_v27_apply, val_main_v26_apply, val_main_v25_apply]
  have ei : idx_main_v25 (idx_main_v26 (ix4 b h q k)) = ix3 b h q := funext fun a => by
    match a with
    | ⟨0, _⟩ => rfl
    | ⟨1, _⟩ => rfl
    | ⟨2, _⟩ => rfl
  rw [ei, v24_eq, v23_eq, Ideal.hostDivf_def]
  rfl

/-- The weights times the values at (b, h, q, d) is column 64 h + d of the row's context. -/
theorem v28_eq (b : Fin 4) (h : Fin 16) (q : Fin 2048) (d : Fin 64) :
    val_main_v28 (F := Ideal) x0 x1 x2 (ix4 b h q d)
      = ctxRow (qkvAt x0 x1 x2 0 b q) (qkvAt x0 x1 x2 1 b) (qkvAt x0 x1 x2 2 b) (col h d) := by
  rw [val_main_v28_apply]
  unfold ctxRow
  rw [hd_col]
  refine Finset.sum_congr rfl fun k _ => ?_
  have el : lidx_main_v28 (ix4 b h q d) k = ix4 b h q k := funext fun a => by
    match a with
    | ⟨0, _⟩ => rfl
    | ⟨1, _⟩ => rfl
    | ⟨2, _⟩ => rfl
    | ⟨3, _⟩ => rfl
  have er : ridx_main_v28 (ix4 b h q d) k = ix4 b h k d := funext fun a => by
    match a with
    | ⟨0, _⟩ => rfl
    | ⟨1, _⟩ => rfl
    | ⟨2, _⟩ => rfl
    | ⟨3, _⟩ => rfl
  rw [el, er, v27_eq, v8_eq]

/-- The context, transposed back and flattened to 1024 columns, at (b, t, c). -/
theorem v30_eq (b : Fin 4) (t : Fin 2048) (c : Fin 1024) :
    val_main_v30 (F := Ideal) x0 x1 x2 (ix3 b t c)
      = ctxRow (qkvAt x0 x1 x2 0 b t) (qkvAt x0 x1 x2 1 b) (qkvAt x0 x1 x2 2 b) c := by
  rw [val_main_v30_apply, val_main_v29_apply]
  have ei : idx_main_v29 (idx_main_v30 (ix3 b t c)) = ix4 b (hd c) t (ln c) :=
    funext fun a => Fin.ext (by
      have hb := b.isLt; have ht := t.isLt; have hc := c.isLt
      match a with
      | ⟨0, _⟩ =>
        show ((b.val * 2048 + t.val) * 1024 + c.val) / 2097152 = b.val
        omega
      | ⟨1, _⟩ =>
        show ((b.val * 2048 + t.val) * 1024 + c.val) / 64 % 16 = c.val / 64
        omega
      | ⟨2, _⟩ =>
        show ((b.val * 2048 + t.val) * 1024 + c.val) / 1024 % 2048 = t.val
        omega
      | ⟨3, _⟩ =>
        show ((b.val * 2048 + t.val) * 1024 + c.val) % 64 = c.val % 64
        omega)
  rw [ei, v28_eq, col_hd_ln]

/-- The output projection with its bias at (b, t, o) is the specification's output. -/
theorem v34_eq (b : Fin 4) (t : Fin 2048) (o : Fin 1024) :
    val_main_v34 (F := Ideal) x0 x1 x2 x3 x4 (ix3 b t o) = outAt x0 x1 x2 x3 x4 b t o := by
  rw [val_main_v34_apply, val_main_v31_apply, val_main_v33_apply, val_main_v32_apply]
  have el : ∀ c : Fin 1024, lidx_main_v31 (ix3 b t o) c = ix3 b t c := fun c => funext fun a => by
    match a with
    | ⟨0, _⟩ => rfl
    | ⟨1, _⟩ => rfl
    | ⟨2, _⟩ => rfl
  have er : ∀ c : Fin 1024, ridx_main_v31 (ix3 b t o) c = ix2 o c := fun c => funext fun a => by
    match a with
    | ⟨0, _⟩ => rfl
    | ⟨1, _⟩ => rfl
  have eb : idx_main_v32 (idx_main_v33 (ix3 b t o)) = ix1 o := funext fun a => by
    match a with
    | ⟨0, _⟩ => rfl
  simp only [el, er, eb, v30_eq, Ideal.addf_def]
  rfl

/-- The reference program's result is the attention specification of its five arguments. -/
theorem ref_is_spec (x0 : (⟨Cert.ReferenceIdeal.S4x2048x1024, .f32⟩ : BufTy).Contents (Elt Ideal))
    (x1 : (⟨Cert.ReferenceIdeal.S3072x1024, .f32⟩ : BufTy).Contents (Elt Ideal))
    (x2 : (⟨Cert.ReferenceIdeal.S3072, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal)) :
    Cert.ReferenceIdeal.Read.val_main_v34 (F := Ideal) x0 x1 x2 x3 x4 = Cert.Attn.out x0 x1 x2 x3 x4 := by
  funext i
  obtain ⟨b, t, o, rfl⟩ : ∃ (b : Fin 4) (t : Fin 2048) (o : Fin 1024), i = ix3 b t o := ⟨i 0, i 1, i 2, eq_ix3 i⟩
  rw [v34_eq]
  rfl

end Cert.RefSide

end
-- ==== Proof.lean ====
/-
  The claims. Both idealized programs compute, at every index, the multi-head attention function of the five
  argument arrays (AttnSpec): the kernel program in two regions — the projection of every token with the weights
  regrouped component by component, then softmax attention over all heads fused with the output projection, one
  block of 512 query rows at a time (KernelRun) —, the reference operation by operation (RefIsSpec). The two differ
  only in how the logits are scaled, by the literal 1/8 against a division by the square root of 64, one function on
  the extended reals. No idealization rule rewrote the kernel, so the idealized kernel is the kernel's own text.
-/
import proofs.«143338_j5093831213592_2_alg».proof.Defs
import proofs.«143338_j5093831213592_2_alg».proof.Proof.Gen.Kernel
import proofs.«143338_j5093831213592_2_alg».proof.Proof.Gen.Kernel.Frame
import proofs.«143338_j5093831213592_2_alg».proof.Proof.Gen.KernelIdeal
import proofs.«143338_j5093831213592_2_alg».proof.Proof.Gen.KernelIdeal.Frame
import proofs.«143338_j5093831213592_2_alg».proof.Proof.Gen.ReferenceIdeal
import proofs.«143338_j5093831213592_2_alg».proof.Proof.Gen.Pre_finite_inputs
import proofs.«143338_j5093831213592_2_alg».proof.Proof.Gen.ReferenceIdeal.Run
import proofs.«143338_j5093831213592_2_alg».proof.Proof.Gen.ReferenceIdeal.Read
import proofs.«143338_j5093831213592_2_alg».proof.Proof.KernelRun
import proofs.«143338_j5093831213592_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end with the result at the attention function of the
    kernel side's argument arrays. -/
theorem algebraic : Cert.algebraic_KernelIdeal_ReferenceIdeal := by
  intro m ρ m' ρ' _ hagree
  refine ⟨fun c => Cert.Attn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefSide.ref_is_spec, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
